-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S2x1x128 : Shape := ⟨3, ![2, 1, 128]⟩
abbrev S5000x128 : Shape := ⟨2, ![5000, 128]⟩
abbrev S1x1x128 : Shape := ⟨3, ![1, 1, 128]⟩
abbrev S2x128 : Shape := ⟨2, ![2, 128]⟩

abbrev nBuf : Space → Nat
  | .hbm => 53
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S100000x128, .bf16⟩
  | .hbm, ⟨30, _⟩ => ⟨S2x1x128, .f32⟩
  | .hbm, ⟨31, _⟩ => ⟨S2x1x128, .f32⟩
  | .hbm, ⟨32, _⟩ => ⟨S2x128, .f32⟩
  | .hbm, ⟨33, _⟩ => ⟨S_, .f32⟩
  | .hbm, ⟨34, _⟩ => ⟨S128, .f32⟩
  | .hbm, ⟨35, _⟩ => ⟨S2x128, .f32⟩
  | .hbm, ⟨36, _⟩ => ⟨S_, .f32⟩
  | .hbm, ⟨37, _⟩ => ⟨S128, .f32⟩
  | .hbm, ⟨38, _⟩ => ⟨S_, .f32⟩
  | .hbm, ⟨39, _⟩ => ⟨S128, .f32⟩
  | .hbm, ⟨40, _⟩ => ⟨S128, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S128, .f32⟩
  | .hbm, ⟨45, _⟩ => ⟨S128, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S128, .f32⟩
  | .hbm, ⟨50, _⟩ => ⟨S1x128, .f32⟩
  | .hbm, ⟨51, _⟩ => ⟨S1x128, .f32⟩
  | .hbm, ⟨52, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .bf16⟩
  | .local _ .vmem, ⟨9, _⟩ => ⟨S5000x128, .bf16⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S5000x128, .bf16⟩
  | .local _ .vmem, ⟨15, _⟩ => ⟨S5000x128, .bf16⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev main_v18_2 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨2, ![2, 10], ![false, false]⟩

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S5000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S1x1x128_S1x1x128_0_0_0 : ∀ a, (![0, 0, 0] : Fin 3 → Nat) a + S1x1x128.size a ≤ S1x1x128.size a
  h_S1x1x128 : 0 < S1x1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  reduces_S5000x128_S128 : S5000x128.Reduces [0] S128
  shapeCasts_S1x1x128_S1x1x128 : S1x1x128.ShapeCasts S1x1x128
  shapeCasts_S1x128_S1x1x128 : S1x128.ShapeCasts S1x1x128
  shapeCasts_S2x1x128_S2x128 : S2x1x128.ShapeCasts S2x128
  reducesTo_S2x128_S128_d0 : S2x128.ReducesTo [0] S128
  h_S_ : 0 < S_.numel
  bcast_S_S128 : S_.BroadcastsInDim S128 (![] : Fin 0 → Fin S128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .bf16 = 32 ∨ (Rect.block (s := S100000x128) S5000x128.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x128.size a ≤ S2x1x128.size a
  hwx0_7 : ∀ i : grid0.Coords, EltTy.bits .f32 = 32 ∨ (Rect.block (s := S2x1x128) S1x1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x128.size a ≤ S2x1x128.size a
  hwx0_8 : ∀ i : grid0.Coords, EltTy.bits .f32 = 32 ∨ (Rect.block (s := S2x1x128) S1x1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .bf16 = 32 ∨ (Rect.block (s := S100000x128) S5000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v18_1) S1x1x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v18_2) S1x1x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v18_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 84
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S100000x128, .f32⟩
  | .hbm, ⟨26, _⟩ => ⟨S100000x128, .f32⟩
  | .hbm, ⟨27, _⟩ => ⟨S1x128, .f32⟩
  | .hbm, ⟨28, _⟩ => ⟨S100000x128, .f32⟩
  | .hbm, ⟨29, _⟩ => ⟨S100000x128, .f32⟩
  | .hbm, ⟨30, _⟩ => ⟨S_, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S128, .f32⟩
  | .hbm, ⟨42, _⟩ => ⟨S_, .f32⟩
  | .hbm, ⟨43, _⟩ => ⟨S128, .f32⟩
  | .hbm, ⟨44, _⟩ => ⟨S128, .f32⟩
  | .hbm, ⟨45, _⟩ => ⟨S_, .i32⟩
  | .hbm, ⟨46, _⟩ => ⟨S_, .f32⟩
  | .hbm, ⟨47, _⟩ => ⟨S128, .f32⟩
  | .hbm, ⟨48, _⟩ => ⟨S1x128, .f32⟩
  | .hbm, ⟨49, _⟩ => ⟨S_, .f32⟩
  | .hbm, ⟨50, _⟩ => ⟨S1x128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S100000x128, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S128, .f32⟩
  | .hbm, ⟨62, _⟩ => ⟨S_, .f32⟩
  | .hbm, ⟨63, _⟩ => ⟨S_, .i1⟩
  | .hbm, ⟨64, _⟩ => ⟨S_, .f32⟩
  | .hbm, ⟨65, _⟩ => ⟨S_, .f32⟩
  | .hbm, ⟨66, _⟩ => ⟨S128, .f32⟩
  | .hbm, ⟨67, _⟩ => ⟨S128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S128, .f32⟩
  | .hbm, ⟨73, _⟩ => ⟨S128, .f32⟩
  | .hbm, ⟨74, _⟩ => ⟨S128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_call0_cst : Ref sig .tc := ⟨.hbm, 46, rfl⟩
abbrev main_call0_v0 : Ref sig .tc := ⟨.hbm, 47, rfl⟩
abbrev main_call0_v1 : Ref sig .tc := ⟨.hbm, 48, rfl⟩
abbrev main_call0_cst_0 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_v6 : Ref sig .tc := ⟨.hbm, 54, rfl⟩
abbrev main_call0_v7 : Ref sig .tc := ⟨.hbm, 55, rfl⟩
abbrev main_call0_cst_1 : Ref sig .tc := ⟨.hbm, 56, rfl⟩
abbrev main_call0_v8 : Ref sig .tc := ⟨.hbm, 57, rfl⟩
abbrev main_call0_cst_2 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_cst_3 : Ref sig .tc := ⟨.hbm, 62, rfl⟩
abbrev main_call0_v12 : Ref sig .tc := ⟨.hbm, 63, rfl⟩
abbrev main_call0_cst_4 : Ref sig .tc := ⟨.hbm, 64, rfl⟩
abbrev main_call0_call0_v0 : Ref sig .tc := ⟨.hbm, 65, rfl⟩
abbrev main_call0_call0_v1 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_cst_6 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The kernel program's run with its result kept: every weakly fair execution terminates, nothing faults, the
  arguments end as launched, and the result array ends at what the second region's write-backs leave.
-/
import proofs.«106001_j82042465288993_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result array's final contents are what the normalising region's write-backs leave. -/
theorem W4_out (c : Dev nD) : W4 m ρ c (Proc.devRef .tc main_v34) = (dat1 (V3 m ρ) c).arrAt 5 cfg1.N := by
  exact W4_arr m ρ c 5

set_option backward.isDefEq.respectTransparency.types false in
/-- The run, with the result array named: from any memory with zero counters every weakly fair execution of the
    program on the TensorCores terminates, nothing faulting; in every final state the result array holds the
    contents the second region's write-backs leave, and each argument array holds what it was launched with.
    Every unscoped buffer ends at the last boundary's contents; the result is read there directly, each argument
    walks back through the boundaries to the launch memory. -/
theorem run_value : θ_run defs (onTc (τ := τ) (main (F := F))) ⟨m, fun _ => 0, ρ⟩ (fun r => ∀ c : Dev nD,
      r.2.mem ((c.tc : Thread nD τ).loc main_v34) = W4 m ρ c (Proc.devRef .tc main_v34)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v34 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Run

end
-- ==== Proof.Spec.lean ====
/-
  The mathematics of one graph-isomorphism layer followed by batch normalisation, on the extended reals.

  A node's features plus the sum of its in-neighbours' features go through two dense layers, each followed by
  max(·, 0); every output column is then normalised over all 100000 nodes: subtract the column mean, multiply by
  (variance + ε)^(-1/2), scale by γ, shift by β.  Two formulas for the column statistics are written here:
  the one-pass form (mean of squares minus square of the mean, the rows summed core by core and block by block) and
  the two-pass form (mean of squared deviations).  Everything is stated over plain functions of literal index
  ranges, so that the programs' arrays are read into it entry by entry.
-/
import Idealize.ShloMosaic.PureOps.Ideal
import Idealize.ShloMosaic.PureOps.Ideal.Laws
import Idealize.ShloMosaic.Lib.ValueIdx

noncomputable section

open scoped BigOperators

namespace Cert.GinNorm

open Idealize.ShloMosaic Idealize.ShloMosaic.ValueIdx

/-- A matrix and a row of extended reals over literal index ranges. -/
abbrev Mat (a b : Nat) := Fin a → Fin b → EReal
abbrev Row (b : Nat) := Fin b → EReal

/-- A rank-2 array read as a matrix, a rank-1 array as a row, the single row of a [1, b] array as a row, and a
    matrix written back as a rank-2 array. -/
abbrev toMat {a b : Nat} (A : (⟨2, ![a, b]⟩ : Shape).Idx → EReal) : Mat a b := fun r e => A (ix2 r e)
abbrev toRow {b : Nat} (v : (⟨1, ![b]⟩ : Shape).Idx → EReal) : Row b := fun e => v (ix1 e)
abbrev rowOf {b : Nat} (v : (⟨2, ![1, b]⟩ : Shape).Idx → EReal) : Row b := fun e => v (ix2 (0 : Fin 1) e)
abbrev ofMat {a b : Nat} (M : Mat a b) : (⟨2, ![a, b]⟩ : Shape).Idx → EReal := fun i => M (i 0) (i 1)

theorem ofMat_ix2 {a b : Nat} (M : Mat a b) (r : Fin a) (e : Fin b) : ofMat M (ix2 r e) = M r e := rfl

/-- The number of nodes, 100000, and the variance offset ε, as the two programs spell them (one binary word each,
    the same word in both programs; ε is never evaluated). -/
def nodes : EReal := Ideal.ofBits .f32 0x47C35000#32
def eps : EReal := Ideal.ofBits .f32 0x3727C5AC#32

theorem nodes_eq : nodes = ((100000 : ℝ) : EReal) := by
  unfold nodes
  simp [Ideal.ofBits, Ideal.ieee, -EReal.coe_mul]; norm_num

/-- A dense layer on one row: v ↦ v · W + b. -/
def dense (W : Mat 128 128) (b : Row 128) (v : Row 128) : Row 128 := fun k => (∑ j : Fin 128, v j * W j k) + b k

/-- max(·, 0), entry by entry. -/
def relu (v : Row 128) : Row 128 := fun k => max (v k) 0

/-- The two dense layers with their max(·, 0). -/
def mlpRow (W1 : Mat 128 128) (b1 : Row 128) (W2 : Mat 128 128) (b2 : Row 128) (v : Row 128) : Row 128 :=
  relu (dense W2 b2 (relu (dense W1 b1 v)))

/-- The activations before normalisation: row r is the two layers applied to x[r] + a[r] (a the neighbour sums). -/
def hidden (x a : Mat 100000 128) (W1 : Mat 128 128) (b1 : Row 128) (W2 : Mat 128 128) (b2 : Row 128) : Mat 100000 128 :=
  fun r => mlpRow W1 b1 W2 b2 (fun j => x r j + a r j)

/-- Row p of block i of core c: the 100000 rows are 2 cores × 10 blocks × 5000 rows, in order. -/
def node (c : Fin 2) (i : Fin 10) (p : Fin 5000) : Fin 100000 :=
  ⟨(c.val * 10 + i.val) * 5000 + p.val, by have := c.isLt; have := i.isLt; have := p.isLt; omega⟩

theorem node_val (c : Fin 2) (i : Fin 10) (p : Fin 5000) : (node c i p).val = (c.val * 10 + i.val) * 5000 + p.val := rfl

/-- One core's share of a column's sum, and of its sum of squares: its ten blocks' 5000 rows each. -/
def coreSum (H : Mat 100000 128) (c : Fin 2) (e : Fin 128) : EReal :=
  ∑ i : Fin 10, ∑ p : Fin 5000, H (node c i p) e
def coreSq (H : Mat 100000 128) (c : Fin 2) (e : Fin 128) : EReal :=
  ∑ i : Fin 10, ∑ p : Fin 5000, H (node c i p) e * H (node c i p) e

/-- One-pass statistics: the mean from the two cores' sums; the variance as mean of squares minus squared mean. -/
def meanK (H : Mat 100000 128) (e : Fin 128) : EReal := Ideal.div (∑ c : Fin 2, coreSum H c e) nodes
def varK (H : Mat 100000 128) (e : Fin 128) : EReal :=
  Ideal.div (∑ c : Fin 2, coreSq H c e) nodes - meanK H e * meanK H e

/-- Two-pass statistics: the mean of a column; the mean of the squared deviations from it. -/
def meanR (H : Mat 100000 128) (e : Fin 128) : EReal := Ideal.div (∑ r : Fin 100000, H r e) nodes
def varR (H : Mat 100000 128) (e : Fin 128) : EReal :=
  Ideal.div (∑ r : Fin 100000, (H r e - meanR H e) * (H r e - meanR H e)) nodes

/-- Normalise every column with a given mean μ and factor s, then scale by γ and shift by β. -/
def normalize (H : Mat 100000 128) (μ s γ β : Row 128) : Mat 100000 128 :=
  fun r e => ((H r e - μ e) * s e) * γ e + β e

/-- The result with one-pass statistics … -/
def kernelOut (x a : Mat 100000 128) (W1 : Mat 128 128) (b1 : Row 128) (W2 : Mat 128 128) (b2 γ β : Row 128) :
    Mat 100000 128 :=
  normalize (hidden x a W1 b1 W2 b2) (meanK (hidden x a W1 b1 W2 b2))
    (fun e => Ideal.rsqrt (varK (hidden x a W1 b1 W2 b2) e + eps)) γ β

/-- … and with two-pass statistics. -/
def refOut (x a : Mat 100000 128) (W1 : Mat 128 128) (b1 : Row 128) (W2 : Mat 128 128) (b2 γ β : Row 128) :
    Mat 100000 128 :=
  normalize (hidden x a W1 b1 W2 b2) (meanR (hidden x a W1 b1 W2 b2))
    (fun e => Ideal.rsqrt (varR (hidden x a W1 b1 W2 b2) e + eps)) γ β

end Cert.GinNorm

end
-- ==== Proof.KernelGlue.lean ====
/-
  The kernel program's host lines, read: what each region is entered with.

  Before the first region: the neighbour sums (a gather of the source rows, scatter-added at the destinations) and
  the two biases as [1, 128] rows.  Between the regions: the two cores' statistics rows added, divided by the number
  of nodes, the variance as mean of squares minus squared mean, the factor (variance + ε)^(-1/2).
-/
import proofs.«106001_j82042465288993_2_alg».proof.Proof.Gen.KernelIdeal.Frame
import proofs.«106001_j82042465288993_2_alg».proof.Proof.Spec
import Idealize.ShloMosaic.Lib.StableHlo.Run
import Idealize.ShloMosaic.Lib.ValueLayout
import Idealize.ShloMosaic.PureOps.Ideal.Laws
import Idealize.ShloMosaic.Lib.IdealHost
import Idealize.ShloMosaic.Lib.Pipeline.Value

noncomputable section

open scoped BigOperators

namespace Cert.KernelIdeal.Glue

open Cert.KernelIdeal Cert.KernelIdeal.Gen Cert.GinNorm
open Idealize.ShloMosaic Idealize.ShloMosaic.TcCoe Idealize.ShloMosaic.ValueIdx Idealize.SL.Sem
open Idealize.ShloMosaic.Pipeline (Dat)

/-- The neighbour sums as this program's host lines compute them from the features and the edge list. -/
def aggK (x : FVec Ideal S100000x128 .f32) (ei : IVec S2x1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0
      (fun i => shapeCast S1600000 (extractStridedSlice S1x1600000 ![1, 0] ei slices_S2x1600000_S1x1600000_1_0)
        shapeCasts_S1x1600000_S1600000 i))
    (Host.gather gather_S100000x128_S1600000x1_S1600000x128_1_0_n_n_0_1_1128 x
      (broadcastInDim S1600000x1 ![0] bcast_S1600000_S1600000x1_0
        (select
          (cmpi .slt
            (fun i => shapeCast S1600000 (extractStridedSlice S1x1600000 ![0, 0] ei slices_S2x1600000_S1x1600000_0_0)
              shapeCasts_S1x1600000_S1600000 i)
            (broadcastInDim S1600000 ![] bcast_S_S1600000 (constantI S_ 32 0#32)))
          (addi
            (fun i => shapeCast S1600000 (extractStridedSlice S1x1600000 ![0, 0] ei slices_S2x1600000_S1x1600000_0_0)
              shapeCasts_S1x1600000_S1600000 i)
            (broadcastInDim S1600000 ![] bcast_S_S1600000 (constantI S_ 32 100000#32)))
          (fun i => shapeCast S1600000 (extractStridedSlice S1x1600000 ![0, 0] ei slices_S2x1600000_S1x1600000_0_0)
            shapeCasts_S1x1600000_S1600000 i))))

/-- The two cores' rows of a [2, 1, 128] statistics array added up, as the host lines do it: the array read as
    [2, 128], summed over its first axis from zero. -/
def sumVec (a : FVec Ideal S2x1x128 .f32) : FVec Ideal S128 .f32 :=
  Host.reduceAdd (F := Ideal) (fun i => shapeCast S2x128 a shapeCasts_S2x1x128_S2x128 i)
    (constant (F := Ideal) S_ .f32 0x00000000#32) reducesTo_S2x128_S128_d0 h_S_

/-- … divided by the number of nodes. -/
def meanVec (a : FVec Ideal S2x1x128 .f32) : FVec Ideal S128 .f32 :=
  Host.divf (F := Ideal) (sumVec a) (broadcastInDim S128 ![] bcast_S_S128 (constant (F := Ideal) S_ .f32 0x47C35000#32))

/-- The factor: (mean of squares − squared mean + ε)^(-1/2), from the sums' array and the squares' array. -/
def factorVec (a7 a8 : FVec Ideal S2x1x128 .f32) : FVec Ideal S128 .f32 :=
  Host.rsqrt (F := Ideal)
    (addf (subf (meanVec a8) (mulf (meanVec a7) (meanVec a7)))
      (broadcastInDim S128 ![] bcast_S_S128 (constant (F := Ideal) S_ .f32 0x3727C5AC#32)))

/-- The sum over the first axis of the [2, 128] reading is the sum of the two rows' entries. -/
theorem sumVec_apply (a : FVec Ideal S2x1x128 .f32) (e : Fin 128) :
    sumVec a (ix1 e) = ∑ k : Fin 2, a (ix3 k (0 : Fin 1) e) := by
  unfold sumVec
  rw [hostReduceAdd_apply]
  refine (Ideal.hostReduceAdd_single reducesTo_S2x128_S128_d0 (by decide) _ _ (ix1 e)).trans ?_
  show Ideal.ofBits .f32 0x00000000#32 + ∑ k : Fin 2, _ = _
  rw [Ideal.ofBits_zero_f32, zero_add]
  refine Finset.sum_congr rfl fun k _ => ?_
  refine shapeCast_apply a shapeCasts_S2x1x128_S2x128 _ (ix3 k (0 : Fin 1) e) ?_
  rw [Shape.rowMajor_val_three, Shape.rowMajor_val_two]
  show (k.val * 1 + 0) * 128 + e.val = k.val * 128 + e.val
  omega

theorem meanVec_apply (a : FVec Ideal S2x1x128 .f32) (e : Fin 128) :
    meanVec a (ix1 e) = Ideal.div (∑ k : Fin 2, a (ix3 k (0 : Fin 1) e)) nodes := by
  unfold meanVec
  rw [hostDivf_apply, sumVec_apply, broadcastInDim_scalar_apply]
  rfl

theorem factorVec_apply (a7 a8 : FVec Ideal S2x1x128 .f32) (e : Fin 128) :
    factorVec a7 a8 (ix1 e)
      = Ideal.rsqrt ((Ideal.div (∑ k : Fin 2, a8 (ix3 k (0 : Fin 1) e)) nodes
            - Ideal.div (∑ k : Fin 2, a7 (ix3 k (0 : Fin 1) e)) nodes
              * Ideal.div (∑ k : Fin 2, a7 (ix3 k (0 : Fin 1) e)) nodes) + eps) := by
  unfold factorVec
  show Ideal.rsqrt ((meanVec a8 (ix1 e) - meanVec a7 (ix1 e) * meanVec a7 (ix1 e))
    + broadcastInDim S128 ![] bcast_S_S128 (constant (F := Ideal) S_ .f32 0x3727C5AC#32) (ix1 e)) = _
  rw [meanVec_apply, meanVec_apply, broadcastInDim_scalar_apply]
  rfl

variable (m : (ℓ : Loc nD τ sig) → Buf (Elt Ideal) ℓ) (ρ : Dev nD → PrngReg) (c : Dev nD)

/-! ## What the first region is entered with -/

theorem V1_x : V1 m ρ c main_arg0 = m ((c.tc : Thread nD τ).loc main_arg0) := by
  show StableHlo.after hostOps0 (W0 m ρ c) (Proc.devRef .tc main_arg0) = _
  after_results
  all_goals rfl
theorem V1_w1 : V1 m ρ c main_arg2 = m ((c.tc : Thread nD τ).loc main_arg2) := by
  show StableHlo.after hostOps0 (W0 m ρ c) (Proc.devRef .tc main_arg2) = _
  after_results
  all_goals rfl
theorem V1_w2 : V1 m ρ c main_arg4 = m ((c.tc : Thread nD τ).loc main_arg4) := by
  show StableHlo.after hostOps0 (W0 m ρ c) (Proc.devRef .tc main_arg4) = _
  after_results
  all_goals rfl
theorem V1_agg : V1 m ρ c main_v13 = aggK (m ((c.tc : Thread nD τ).loc main_arg0)) (m ((c.tc : Thread nD τ).loc main_arg1)) := by
  show StableHlo.after hostOps0 (W0 m ρ c) (Proc.devRef .tc main_v13) = _
  after_results
  rfl
theorem V1_b1 (k : Fin 128) : V1 m ρ c main_v14 (ix2 (0 : Fin 1) k) = m ((c.tc : Thread nD τ).loc main_arg3) (ix1 k) := by
  have h : (V1 m ρ c main_v14 : S1x128.Idx → EReal)
      = fun i => shapeCast S1x128 (m ((c.tc : Thread nD τ).loc main_arg3)) shapeCasts_S128_S1x128 i := by
    show StableHlo.after hostOps0 (W0 m ρ c) (Proc.devRef .tc main_v14) = _
    after_results
    rfl
  rw [h]
  exact shapeCast_a_1a_apply _ _ (0 : Fin 1) k
theorem V1_b2 (k : Fin 128) : V1 m ρ c main_v15 (ix2 (0 : Fin 1) k) = m ((c.tc : Thread nD τ).loc main_arg5) (ix1 k) := by
  have h : (V1 m ρ c main_v15 : S1x128.Idx → EReal)
      = fun i => shapeCast S1x128 (m ((c.tc : Thread nD τ).loc main_arg5)) shapeCasts_S128_S1x128 i := by
    show StableHlo.after hostOps0 (W0 m ρ c) (Proc.devRef .tc main_v15) = _
    after_results
    rfl
  rw [h]
  exact shapeCast_a_1a_apply _ _ (0 : Fin 1) k

/-! ## What the second region is entered with -/

theorem V3_h : V3 m ρ c main_v18_0 = (dat0 (V1 m ρ) c).arrAt 6 cfg0.N := by
  have h : V3 m ρ c main_v18_0 = W2 m ρ c (Proc.devRef .tc main_v18_0) := by
    show StableHlo.after hostOps1 (W2 m ρ c) (Proc.devRef .tc main_v18_0) = _
    after_results
    all_goals rfl
  exact h.trans (W2_arr m ρ c 6)
theorem V3_mean (e : Fin 128) :
    V3 m ρ c main_v32 (ix2 (0 : Fin 1) e)
      = Ideal.div (∑ k : Fin 2, (dat0 (V1 m ρ) c).arrAt 7 cfg0.N (ix3 k (0 : Fin 1) e)) nodes := by
  have h : (V3 m ρ c main_v32 : S1x128.Idx → EReal)
      = fun i => shapeCast S1x128 (meanVec (W2 m ρ c (Proc.devRef .tc main_v18_1))) shapeCasts_S128_S1x128 i := by
    show StableHlo.after hostOps1 (W2 m ρ c) (Proc.devRef .tc main_v32) = _
    after_results
    rfl
  have h7 : W2 m ρ c (Proc.devRef .tc main_v18_1) = (dat0 (V1 m ρ) c).arrAt 7 cfg0.N := W2_arr m ρ c 7
  rw [h, h7]
  exact (shapeCast_a_1a_apply _ _ (0 : Fin 1) e).trans (meanVec_apply _ e)
theorem V3_factor (e : Fin 128) :
    V3 m ρ c main_v33 (ix2 (0 : Fin 1) e)
      = Ideal.rsqrt ((Ideal.div (∑ k : Fin 2, (dat0 (V1 m ρ) c).arrAt 8 cfg0.N (ix3 k (0 : Fin 1) e)) nodes
            - Ideal.div (∑ k : Fin 2, (dat0 (V1 m ρ) c).arrAt 7 cfg0.N (ix3 k (0 : Fin 1) e)) nodes
              * Ideal.div (∑ k : Fin 2, (dat0 (V1 m ρ) c).arrAt 7 cfg0.N (ix3 k (0 : Fin 1) e)) nodes) + eps) := by
  have h : (V3 m ρ c main_v33 : S1x128.Idx → EReal)
      = fun i => shapeCast S1x128 (factorVec (W2 m ρ c (Proc.devRef .tc main_v18_1)) (W2 m ρ c (Proc.devRef .tc main_v18_2)))
          shapeCasts_S128_S1x128 i := by
    show StableHlo.after hostOps1 (W2 m ρ c) (Proc.devRef .tc main_v33) = _
    after_results
    rfl
  have h7 : W2 m ρ c (Proc.devRef .tc main_v18_1) = (dat0 (V1 m ρ) c).arrAt 7 cfg0.N := W2_arr m ρ c 7
  have h8 : W2 m ρ c (Proc.devRef .tc main_v18_2) = (dat0 (V1 m ρ) c).arrAt 8 cfg0.N := W2_arr m ρ c 8
  rw [h, h7, h8]
  exact (shapeCast_a_1a_apply _ _ (0 : Fin 1) e).trans (factorVec_apply _ _ e)
theorem V3_gamma (e : Fin 128) : V3 m ρ c main_v16 (ix2 (0 : Fin 1) e) = m ((c.tc : Thread nD τ).loc main_arg6) (ix1 e) := by
  have h1 : V3 m ρ c main_v16 = W2 m ρ c (Proc.devRef .tc main_v16) := by
    show StableHlo.after hostOps1 (W2 m ρ c) (Proc.devRef .tc main_v16) = _
    after_results
    all_goals rfl
  have h2 : W2 m ρ c (Proc.devRef .tc main_v16) = W1 m ρ c (Proc.devRef .tc main_v16) :=
    W2_of_ne m ρ c main_v16 (by decide)
  have h3 : (W1 m ρ c (Proc.devRef .tc main_v16) : S1x128.Idx → EReal)
      = fun i => shapeCast S1x128 (m ((c.tc : Thread nD τ).loc main_arg6)) shapeCasts_S128_S1x128 i := by
    show StableHlo.after hostOps0 (W0 m ρ c) (Proc.devRef .tc main_v16) = _
    after_results
    rfl
  rw [h1, h2, h3]
  exact shapeCast_a_1a_apply _ _ (0 : Fin 1) e
theorem V3_beta (e : Fin 128) : V3 m ρ c main_v17 (ix2 (0 : Fin 1) e) = m ((c.tc : Thread nD τ).loc main_arg7) (ix1 e) := by
  have h1 : V3 m ρ c main_v17 = W2 m ρ c (Proc.devRef .tc main_v17) := by
    show StableHlo.after hostOps1 (W2 m ρ c) (Proc.devRef .tc main_v17) = _
    after_results
    all_goals rfl
  have h2 : W2 m ρ c (Proc.devRef .tc main_v17) = W1 m ρ c (Proc.devRef .tc main_v17) :=
    W2_of_ne m ρ c main_v17 (by decide)
  have h3 : (W1 m ρ c (Proc.devRef .tc main_v17) : S1x128.Idx → EReal)
      = fun i => shapeCast S1x128 (m ((c.tc : Thread nD τ).loc main_arg7)) shapeCasts_S128_S1x128 i := by
    show StableHlo.after hostOps0 (W0 m ρ c) (Proc.devRef .tc main_v17) = _
    after_results
    rfl
  rw [h1, h2, h3]
  exact shapeCast_a_1a_apply _ _ (0 : Fin 1) e

end Cert.KernelIdeal.Glue

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.StatsBody.lean ====
/-
  The statistics kernel's arithmetic, read entry by entry on the extended reals.

  One block of 5000 rows goes through x + a, two dense layers with max(·, 0); the block's column sums of the result
  and of its squares are formed, and added to the running sums.
-/
import proofs.«106001_j82042465288993_2_alg».proof.Proof.Gen.KernelIdeal.Skeleton
import proofs.«106001_j82042465288993_2_alg».proof.Proof.Spec
import proofs.«106001_j82042465288993_2_alg».proof.Proof.LibPlainMatmul
import Idealize.ShloMosaic.Lib.ValueLayout
import Idealize.ShloMosaic.PureOps.Ideal.Laws

noncomputable section

open scoped BigOperators

namespace Cert.KernelIdeal.StatsBody

open Cert.KernelIdeal Cert.KernelIdeal.Gen Cert.GinNorm Idealize.ShloMosaic Idealize.ShloMosaic.ValueIdx

variable (x a : FVec Ideal S5000x128 .f32) (w1 w2 : FVec Ideal S128x128 .f32) (c1 c2 : FVec Ideal S1x128 .f32)

/-- One dense layer followed by max(·, 0), on a block of 5000 rows: entry (p, e) is the layer applied to row p. The
    operands' change of format is the identity, the product into the zero accumulator is the sum over the 128
    contracted coordinates, and the one bias row is read on every row. -/
theorem layer_apply (u : FVec Ideal S5000x128 .f32) (w : FVec Ideal S128x128 .f32) (c : FVec Ideal S1x128 .f32)
    (p : Fin 5000) (e : Fin 128) :
    maximumf
        (addf
          (matmul (F := Ideal) dot_S5000x128_S128x128_S5000x128_1_0_0_1_n_n none (truncf .bf16 u bitsLt_bf16_f32)
            (truncf .bf16 w bitsLt_bf16_f32) (constant S5000x128 .f32 0x00000000#32))
          (broadcastTo S5000x128 (shapeCast S1x128 c shapeCasts_S1x128_S1x128) broadcasts_S1x128_S5000x128))
        (broadcast S5000x128 (Scalar.ofBits (F := Ideal) .f32 0x00000000#32)) (ix2 p e)
      = relu (dense (toMat w) (rowOf c) (fun j => u (ix2 p j))) e := by
  have hm := matmul_plain_zero_apply (M := 5000) (K := 128) (N := 128) dot_S5000x128_S128x128_S5000x128_1_0_0_1_n_n rfl none
    (truncf .bf16 u bitsLt_bf16_f32 : FVec Ideal S5000x128 .bf16) (truncf .bf16 w bitsLt_bf16_f32 : FVec Ideal S128x128 .bf16) p e
  have hb : broadcastTo S5000x128 (shapeCast S1x128 c shapeCasts_S1x128_S1x128) broadcasts_S1x128_S5000x128 (ix2 p e)
      = c (ix2 (0 : Fin 1) e) :=
    (broadcastTo_1b_ab_apply (a := 5000) (shapeCast S1x128 c shapeCasts_S1x128_S1x128) broadcasts_S1x128_S5000x128 p e).trans
      (congrFun (shapeCast_self c shapeCasts_S1x128_S1x128) _)
  exact congrArg₂ max (congrArg₂ (· + ·) hm hb) Ideal.ofBits_zero_f32

/-- The column sums of a [5000, 128] array, taken over axis 0 and then given a leading unit axis: at (0, e) the
    sum over the 5000 rows of column e (the reduced index e with the row coordinate inserted is (p, e)). -/
theorem colSum_apply (v : FVec Ideal S5000x128 .f32) (e : Fin 128) :
    shapeCast S1x128 (multiReduction (F := Ideal) .add [0] S128 v 0x00000000#32 reduces_S5000x128_S128 (.inl rfl) rfl)
        shapeCasts_S128_S1x128 (ix2 (0 : Fin 1) e)
      = ∑ p : Fin 5000, v (ix2 p e) := by
  refine (shapeCast_a_1a_apply _ shapeCasts_S128_S1x128 (0 : Fin 1) e).trans ?_
  refine (Ideal.multiReduction_add_single v 0x00000000#32 reduces_S5000x128_S128 (.inl rfl) rfl (ix1 e)).trans ?_
  refine Finset.sum_congr rfl fun k _ => congrArg v ?_
  funext d
  match d with
  | ⟨0, _⟩ => exact Fin.ext rfl
  | ⟨1, _⟩ => exact Fin.ext rfl

/-- Entry (p, e) of the block's activations: the two layers applied to row p of x + a. -/
theorem pay5_apply (p : Fin 5000) (e : Fin 128) :
    k0_pay5 (F := Ideal) x a w1 w2 c1 c2 (ix2 p e)
      = mlpRow (toMat w1) (rowOf c1) (toMat w2) (rowOf c2) (fun j => x (ix2 p j) + a (ix2 p j)) e := by
  unfold k0_pay5
  refine (layer_apply _ w2 c2 p e).trans ?_
  unfold mlpRow
  refine congrArg (fun v => relu (dense (toMat w2) (rowOf c2) v) e) (funext fun j => ?_)
  refine (layer_apply _ w1 c1 p j).trans ?_
  refine congrArg (fun v => relu (dense (toMat w1) (rowOf c1) v) j) (funext fun i => ?_)
  exact congrArg (fun t => x (ix2 p i) + t) (congrFun (shapeCast_self a shapeCasts_S5000x128_S5000x128) _)

/-- The stored block is the activations (the change of format is the identity). -/
theorem pay6_apply (p : Fin 5000) (e : Fin 128) :
    k0_pay6 (F := Ideal) x a w1 w2 c1 c2 (ix2 p e) = k0_pay5 (F := Ideal) x a w1 w2 c1 c2 (ix2 p e) := by
  rfl

/-- The block's column sums. -/
theorem pay7_apply (e : Fin 128) :
    k0_pay7 (F := Ideal) x a w1 w2 c1 c2 (ix2 (0 : Fin 1) e)
      = ∑ p : Fin 5000, k0_pay5 (F := Ideal) x a w1 w2 c1 c2 (ix2 p e) := by
  unfold k0_pay7
  exact colSum_apply (k0_pay5 (F := Ideal) x a w1 w2 c1 c2) e

/-- The block's column sums of squares. -/
theorem pay8_apply (e : Fin 128) :
    k0_pay8 (F := Ideal) x a w1 w2 c1 c2 (ix2 (0 : Fin 1) e)
      = ∑ p : Fin 5000, k0_pay5 (F := Ideal) x a w1 w2 c1 c2 (ix2 p e) * k0_pay5 (F := Ideal) x a w1 w2 c1 c2 (ix2 p e) := by
  unfold k0_pay8
  exact colSum_apply (mulf (k0_pay5 (F := Ideal) x a w1 w2 c1 c2) (k0_pay5 (F := Ideal) x a w1 w2 c1 c2)) e

/-- A running sum plus a block's contribution (both accumulators). -/
theorem pay1_apply (s : FVec Ideal S1x128 .f32) (acc : Vec Ideal S1x1x128 .f32) (e : Fin 128) :
    k0_pay1 (F := Ideal) s acc (ix3 (0 : Fin 1) (0 : Fin 1) e) = acc (ix3 (0 : Fin 1) (0 : Fin 1) e) + s (ix2 (0 : Fin 1) e) := by
  unfold k0_pay1
  exact congrArg₂ (· + ·) (congrFun (shapeCast_self acc shapeCasts_S1x1x128_S1x1x128) _)
    (shapeCast_ab_1ab_apply s shapeCasts_S1x128_S1x1x128 (0 : Fin 1) (0 : Fin 1) e)
theorem pay2_apply (s : FVec Ideal S1x128 .f32) (acc : Vec Ideal S1x1x128 .f32) (e : Fin 128) :
    k0_pay2 (F := Ideal) s acc (ix3 (0 : Fin 1) (0 : Fin 1) e) = acc (ix3 (0 : Fin 1) (0 : Fin 1) e) + s (ix2 (0 : Fin 1) e) := by
  unfold k0_pay2
  exact congrArg₂ (· + ·) (congrFun (shapeCast_self acc shapeCasts_S1x1x128_S1x1x128) _)
    (shapeCast_ab_1ab_apply s shapeCasts_S1x128_S1x1x128 (0 : Fin 1) (0 : Fin 1) e)

/-- The accumulators start at zero. -/
theorem pay3_apply (i : S1x1x128.Idx) : k0_pay3 (F := Ideal) i = 0 := by
  unfold k0_pay3
  exact Ideal.ofBits_zero_f32
theorem pay4_apply (i : S1x1x128.Idx) : k0_pay4 (F := Ideal) i = 0 := by
  unfold k0_pay4
  exact Ideal.ofBits_zero_f32

end Cert.KernelIdeal.StatsBody

end
-- ==== Proof.StatsPieces.lean ====
/-
  What one run of the statistics kernel's body leaves in the staging buffers of its three results, case by case.

  Every store of the body writes a whole staging buffer, so each buffer ends holding the payload of its last store:
  the block of activations; the running column sums plus the block's column sums; the same for the squares.  At the
  first block of a core the running sums are the zeros the body has just stored and read back.
-/
import proofs.«106001_j82042465288993_2_alg».proof.Proof.Gen.KernelIdeal.Frame
import Idealize.ShloMosaic.Lib.Pipeline.Value
import Idealize.ShloMosaic.Lib.Tactic

noncomputable section

namespace Cert.KernelIdeal.StatsPieces

open Cert.KernelIdeal Cert.KernelIdeal.Gen
open Idealize.ShloMosaic Idealize.ShloMosaic.TcCoe Idealize.SL.Sem

variable {F : FTy → Type} [FloatOps F]

/-- The zero offsets of a rank-2 and of a rank-3 buffer, as constant functions. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## A block that is not a core's first: the running sums are what the block before left -/

/-- The activations' buffer holds the block of activations. -/
theorem out_B_6 (c : Dev nD) (i : grid0.Coords) (a2 : Memref sig .tc .vmem S5000x128 .f32) (h2 : a2.IsWhole) (a3 : Memref sig .tc .vmem S5000x128 .f32) (h3 : a3.IsWhole) (a4 : Memref sig .tc .vmem S128x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .bf16) (h8 : a8.IsWhole) (a9 : Memref sig .tc .vmem S1x1x128 .f32) (h9 : a9.IsWhole) (a10 : Memref sig .tc .vmem S1x1x128 .f32) (h10 : a10.IsWhole) (hc : ¬cond0_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x1x128 .f32) (xo8 : Vec F S1x1x128 .f32) :
    out0_B_6 c i a2 h2 a3 h3 a4 h4 a5 h5 a6 h6 a7 h7 a8 h8 a9 h9 a10 h10 hc x0 x1 x2 x3 x4 x5 xo7 xo8 = k0_pay6 x0 x1 x2 x4 x3 x5 := by
  unfold out0_B_6
  rw [View.read_writes_eq_canon _ _ _ (cover0_B_6 c i a2 h2 a3 h3 a4 h4 a5 h5 a6 h6 a7 h7 a8 h8 a9 h9 a10 h10 hc x0 x1 x2 x3 x4 x5 xo7 xo8)]
  unfold kernelRun0_B
  dsimp only
  sl_unfold_words
  rw [View.canon_unit_zero (S := S5000x128) hz2]
  simp only [View.readAt_eq_ld, h2.read_unread, h3.read_unread, h4.read_unread, h5.read_unread, h6.read_unread, h7.read_unread, h9.read_unread, h10.read_unread,
    View.ld_unit_zero (S := S5000x128) hz2, View.ld_unit_zero (S := S128x128) hz2, View.ld_unit_zero (S := S1x128) hz2, View.ld_unit_zero (S := S1x1x128) hz3]

/-- The sums' buffer holds the running sums plus the block's column sums. -/
theorem out_B_7 (c : Dev nD) (i : grid0.Coords) (a2 : Memref sig .tc .vmem S5000x128 .f32) (h2 : a2.IsWhole) (a3 : Memref sig .tc .vmem S5000x128 .f32) (h3 : a3.IsWhole) (a4 : Memref sig .tc .vmem S128x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .bf16) (h8 : a8.IsWhole) (a9 : Memref sig .tc .vmem S1x1x128 .f32) (h9 : a9.IsWhole) (a10 : Memref sig .tc .vmem S1x1x128 .f32) (h10 : a10.IsWhole) (hc : ¬cond0_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x1x128 .f32) (xo8 : Vec F S1x1x128 .f32) :
    out0_B_7 c i a2 h2 a3 h3 a4 h4 a5 h5 a6 h6 a7 h7 a8 h8 a9 h9 a10 h10 hc x0 x1 x2 x3 x4 x5 xo7 xo8 = k0_pay1 (k0_pay7 x0 x1 x2 x4 x3 x5) xo7 := by
  unfold out0_B_7
  rw [View.read_writes_eq_canon _ _ _ (cover0_B_7 c i a2 h2 a3 h3 a4 h4 a5 h5 a6 h6 a7 h7 a8 h8 a9 h9 a10 h10 hc x0 x1 x2 x3 x4 x5 xo7 xo8)]
  unfold kernelRun0_B
  dsimp only
  sl_unfold_words
  rw [View.canon_unit_zero (S := S1x1x128) hz3]
  simp only [View.readAt_eq_ld, h2.read_unread, h3.read_unread, h4.read_unread, h5.read_unread, h6.read_unread, h7.read_unread, h9.read_unread, h10.read_unread,
    View.ld_unit_zero (S := S5000x128) hz2, View.ld_unit_zero (S := S128x128) hz2, View.ld_unit_zero (S := S1x128) hz2, View.ld_unit_zero (S := S1x1x128) hz3]

/-- The squares' buffer holds the running sums of squares plus the block's column sums of squares. -/
theorem out_B_8 (c : Dev nD) (i : grid0.Coords) (a2 : Memref sig .tc .vmem S5000x128 .f32) (h2 : a2.IsWhole) (a3 : Memref sig .tc .vmem S5000x128 .f32) (h3 : a3.IsWhole) (a4 : Memref sig .tc .vmem S128x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .bf16) (h8 : a8.IsWhole) (a9 : Memref sig .tc .vmem S1x1x128 .f32) (h9 : a9.IsWhole) (a10 : Memref sig .tc .vmem S1x1x128 .f32) (h10 : a10.IsWhole) (hc : ¬cond0_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x1x128 .f32) (xo8 : Vec F S1x1x128 .f32) :
    out0_B_8 c i a2 h2 a3 h3 a4 h4 a5 h5 a6 h6 a7 h7 a8 h8 a9 h9 a10 h10 hc x0 x1 x2 x3 x4 x5 xo7 xo8 = k0_pay2 (k0_pay8 x0 x1 x2 x4 x3 x5) xo8 := by
  unfold out0_B_8
  rw [View.read_writes_eq_canon _ _ _ (cover0_B_8 c i a2 h2 a3 h3 a4 h4 a5 h5 a6 h6 a7 h7 a8 h8 a9 h9 a10 h10 hc x0 x1 x2 x3 x4 x5 xo7 xo8)]
  unfold kernelRun0_B
  dsimp only
  sl_unfold_words
  rw [View.canon_unit_zero (S := S1x1x128) hz3]
  simp only [View.readAt_eq_ld, h2.read_unread, h3.read_unread, h4.read_unread, h5.read_unread, h6.read_unread, h7.read_unread, h9.read_unread, h10.read_unread,
    View.ld_unit_zero (S := S5000x128) hz2, View.ld_unit_zero (S := S128x128) hz2, View.ld_unit_zero (S := S1x128) hz2, View.ld_unit_zero (S := S1x1x128) hz3]

/-! ## A core's first block: the running sums are the zeros just stored -/

/-- The activations' buffer holds the block of activations. -/
theorem out_A_6 (c : Dev nD) (i : grid0.Coords) (a2 : Memref sig .tc .vmem S5000x128 .f32) (h2 : a2.IsWhole) (a3 : Memref sig .tc .vmem S5000x128 .f32) (h3 : a3.IsWhole) (a4 : Memref sig .tc .vmem S128x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .bf16) (h8 : a8.IsWhole) (a9 : Memref sig .tc .vmem S1x1x128 .f32) (h9 : a9.IsWhole) (a10 : Memref sig .tc .vmem S1x1x128 .f32) (h10 : a10.IsWhole) (hc : cond0_0 i)
    (x0 : Vec F S5000x128 .f32) (x1 : Vec F S5000x128 .f32) (x2 : Vec F S128x128 .f32) (x3 : Vec F S1x128 .f32) (x4 : Vec F S128x128 .f32) (x5 : Vec F S1x128 .f32) :
    out0_A_6 c i a2 h2 a3 h3 a4 h4 a5 h5 a6 h6 a7 h7 a8 h8 a9 h9 a10 h10 hc x0 x1 x2 x3 x4 x5 = k0_pay6 x0 x1 x2 x4 x3 x5 := by
  unfold out0_A_6
  rw [View.read_writes_eq_canon _ _ _ (cover0_A_6 c i a2 h2 a3 h3 a4 h4 a5 h5 a6 h6 a7 h7 a8 h8 a9 h9 a10 h10 hc x0 x1 x2 x3 x4 x5)]
  unfold kernelRun0_A
  dsimp only
  sl_unfold_words
  rw [View.canon_unit_zero (S := S5000x128) hz2]
  simp only [View.readAt_eq_ld, h2.read_unread, h3.read_unread, h4.read_unread, h5.read_unread, h6.read_unread, h7.read_unread,
    View.ld_unit_zero (S := S5000x128) hz2, View.ld_unit_zero (S := S128x128) hz2, View.ld_unit_zero (S := S1x128) hz2]

/-- The sums' buffer holds zero plus the block's column sums. -/
theorem out_A_7 (c : Dev nD) (i : grid0.Coords) (a2 : Memref sig .tc .vmem S5000x128 .f32) (h2 : a2.IsWhole) (a3 : Memref sig .tc .vmem S5000x128 .f32) (h3 : a3.IsWhole) (a4 : Memref sig .tc .vmem S128x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .bf16) (h8 : a8.IsWhole) (a9 : Memref sig .tc .vmem S1x1x128 .f32) (h9 : a9.IsWhole) (a10 : Memref sig .tc .vmem S1x1x128 .f32) (h10 : a10.IsWhole) (hc : cond0_0 i)
    (x0 : Vec F S5000x128 .f32) (x1 : Vec F S5000x128 .f32) (x2 : Vec F S128x128 .f32) (x3 : Vec F S1x128 .f32) (x4 : Vec F S128x128 .f32) (x5 : Vec F S1x128 .f32) :
    out0_A_7 c i a2 h2 a3 h3 a4 h4 a5 h5 a6 h6 a7 h7 a8 h8 a9 h9 a10 h10 hc x0 x1 x2 x3 x4 x5 = k0_pay1 (k0_pay7 x0 x1 x2 x4 x3 x5) k0_pay3 := by
  unfold out0_A_7
  rw [View.read_writes_eq_canon _ _ _ (cover0_A_7 c i a2 h2 a3 h3 a4 h4 a5 h5 a6 h6 a7 h7 a8 h8 a9 h9 a10 h10 hc x0 x1 x2 x3 x4 x5)]
  unfold kernelRun0_A
  dsimp only
  sl_unfold_words
  rw [View.canon_cons_unit_zero (S := S1x1x128) hz3, View.readCov_unit_zero (S := S1x1x128) _ hz3]
  simp only [View.readAt_eq_ld, h2.read_unread, h3.read_unread, h4.read_unread, h5.read_unread, h6.read_unread, h7.read_unread,
    View.ld_unit_zero (S := S5000x128) hz2, View.ld_unit_zero (S := S128x128) hz2, View.ld_unit_zero (S := S1x128) hz2]

/-- The squares' buffer holds zero plus the block's column sums of squares. -/
theorem out_A_8 (c : Dev nD) (i : grid0.Coords) (a2 : Memref sig .tc .vmem S5000x128 .f32) (h2 : a2.IsWhole) (a3 : Memref sig .tc .vmem S5000x128 .f32) (h3 : a3.IsWhole) (a4 : Memref sig .tc .vmem S128x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .bf16) (h8 : a8.IsWhole) (a9 : Memref sig .tc .vmem S1x1x128 .f32) (h9 : a9.IsWhole) (a10 : Memref sig .tc .vmem S1x1x128 .f32) (h10 : a10.IsWhole) (hc : cond0_0 i)
    (x0 : Vec F S5000x128 .f32) (x1 : Vec F S5000x128 .f32) (x2 : Vec F S128x128 .f32) (x3 : Vec F S1x128 .f32) (x4 : Vec F S128x128 .f32) (x5 : Vec F S1x128 .f32) :
    out0_A_8 c i a2 h2 a3 h3 a4 h4 a5 h5 a6 h6 a7 h7 a8 h8 a9 h9 a10 h10 hc x0 x1 x2 x3 x4 x5 = k0_pay2 (k0_pay8 x0 x1 x2 x4 x3 x5) k0_pay4 := by
  unfold out0_A_8
  rw [View.read_writes_eq_canon _ _ _ (cover0_A_8 c i a2 h2 a3 h3 a4 h4 a5 h5 a6 h6 a7 h7 a8 h8 a9 h9 a10 h10 hc x0 x1 x2 x3 x4 x5)]
  unfold kernelRun0_A
  dsimp only
  sl_unfold_words
  rw [View.canon_cons_unit_zero (S := S1x1x128) hz3, View.readCov_unit_zero (S := S1x1x128) _ hz3]
  simp only [View.readAt_eq_ld, h2.read_unread, h3.read_unread, h4.read_unread, h5.read_unread, h6.read_unread, h7.read_unread,
    View.ld_unit_zero (S := S5000x128) hz2, View.ld_unit_zero (S := S128x128) hz2, View.ld_unit_zero (S := S1x128) hz2]

end Cert.KernelIdeal.StatsPieces

end
-- ==== Proof.StatsBlocks.lean ====
/-
  The statistics kernel point by point: what a point reads, and what its body leaves from it.

  Point t reads rows 5000 t … 5000 t + 4999 of x and of the neighbour sums, and the two weight matrices and the two
  bias rows whole.  Its body therefore computes rows 5000 t … of the activations; it leaves that block in the first
  result's buffer, and in the two accumulators the block's column sums (of the values, and of their squares) added
  to zero at a core's first block and to what the block before left otherwise.
-/
import proofs.«106001_j82042465288993_2_alg».proof.Proof.Gen.KernelIdeal.Frame
import proofs.«106001_j82042465288993_2_alg».proof.Proof.StatsPieces
import proofs.«106001_j82042465288993_2_alg».proof.Proof.StatsBody
import proofs.«106001_j82042465288993_2_alg».proof.Proof.Spec
import Idealize.ShloMosaic.Lib.Pipeline.Value

noncomputable section

open scoped BigOperators

namespace Cert.KernelIdeal.StatsBlocks

open Cert.KernelIdeal Cert.KernelIdeal.Gen Cert.GinNorm
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The activations of all 100000 rows, from the contents the region is entered with. -/
abbrev act (c : Dev nD) : Mat 100000 128 :=
  hidden (toMat (V c main_arg0)) (toMat (V c main_v13)) (toMat (V c main_arg2)) (rowOf (V c main_v14))
    (toMat (V c main_arg4)) (rowOf (V c main_v15))

/-! ## Which block each window is on at a point -/

/-- The inputs: x and the neighbour sums are on row block t, the weights and biases on their one block. -/
theorem idx_in : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The results: the activations are on row block t, the two accumulators on the core's row t / 10. -/
theorem idx_out : ∀ t : Fin cfg0.N,
    win0_6.index t (0 : Fin 2) = t.val ∧ win0_6.index t (1 : Fin 2) = 0
    ∧ win0_7.index t (0 : Fin 3) = t.val / 10 ∧ win0_7.index t (1 : Fin 3) = 0 ∧ win0_7.index t (2 : Fin 3) = 0
    ∧ win0_8.index t (0 : Fin 3) = t.val / 10 ∧ win0_8.index t (1 : Fin 3) = 0 ∧ win0_8.index t (2 : Fin 3) = 0 :=
  (by decide +kernel : ∀ t : Fin grid0.N, _)

/-! ## What a point reads -/

/-- Row p of x's block at point t is row 5000 t + p of x. -/
theorem blk_x (c : Dev nD) (t : Fin cfg0.N) (p : Fin 5000) (j : Fin 128) (h : t.val * 5000 + p.val < 100000) :
    iblk0 V c 0 t (ix2 p j) = V c main_arg0 (ix2 ⟨t.val * 5000 + p.val, h⟩ j) := by
  obtain ⟨e0, e1, -⟩ := idx_in t
  unfold iblk0
  rw [View.read_apply]
  show V c main_arg0 _ = V c main_arg0 _
  congr 1
  funext a
  apply Fin.ext
  match a with
  | ⟨0, _⟩ => show win0_0.index t (0 : Fin 2) * 5000 + 1 * p.val = t.val * 5000 + p.val; rw [e0]; omega
  | ⟨1, _⟩ => show win0_0.index t (1 : Fin 2) * 128 + 1 * j.val = j.val; rw [e1]; omega

/-- Row p of the neighbour sums' block at point t is their row 5000 t + p. -/
theorem blk_a (c : Dev nD) (t : Fin cfg0.N) (p : Fin 5000) (j : Fin 128) (h : t.val * 5000 + p.val < 100000) :
    iblk0 V c 1 t (ix2 p j) = V c main_v13 (ix2 ⟨t.val * 5000 + p.val, h⟩ j) := by
  obtain ⟨-, -, e0, e1, -⟩ := idx_in t
  unfold iblk0
  rw [View.read_apply]
  show V c main_v13 _ = V c main_v13 _
  congr 1
  funext a
  apply Fin.ext
  match a with
  | ⟨0, _⟩ => show win0_1.index t (0 : Fin 2) * 5000 + 1 * p.val = t.val * 5000 + p.val; rw [e0]; omega
  | ⟨1, _⟩ => show win0_1.index t (1 : Fin 2) * 128 + 1 * j.val = j.val; rw [e1]; omega

/-- The first weight matrix is read whole. -/
theorem blk_w1 (c : Dev nD) (t : Fin cfg0.N) (r : Fin 128) (j : Fin 128) :
    iblk0 V c 2 t (ix2 r j) = V c main_arg2 (ix2 r j) := by
  obtain ⟨-, -, -, -, e0, e1, -⟩ := idx_in t
  unfold iblk0
  rw [View.read_apply]
  show V c main_arg2 _ = V c main_arg2 _
  congr 1
  funext a
  apply Fin.ext
  match a with
  | ⟨0, _⟩ => show win0_2.index t (0 : Fin 2) * 128 + 1 * r.val = r.val; rw [e0]; omega
  | ⟨1, _⟩ => show win0_2.index t (1 : Fin 2) * 128 + 1 * j.val = j.val; rw [e1]; omega

/-- The first bias row is read whole. -/
theorem blk_b1 (c : Dev nD) (t : Fin cfg0.N) (j : Fin 128) :
    iblk0 V c 3 t (ix2 (0 : Fin 1) j) = V c main_v14 (ix2 (0 : Fin 1) j) := by
  obtain ⟨-, -, -, -, -, -, e0, e1, -⟩ := idx_in t
  unfold iblk0
  rw [View.read_apply]
  show V c main_v14 _ = V c main_v14 _
  congr 1
  funext a
  apply Fin.ext
  match a with
  | ⟨0, _⟩ => show win0_3.index t (0 : Fin 2) * 1 + 1 * 0 = 0; rw [e0]
  | ⟨1, _⟩ => show win0_3.index t (1 : Fin 2) * 128 + 1 * j.val = j.val; rw [e1]; omega

/-- The second weight matrix is read whole. -/
theorem blk_w2 (c : Dev nD) (t : Fin cfg0.N) (r : Fin 128) (j : Fin 128) :
    iblk0 V c 4 t (ix2 r j) = V c main_arg4 (ix2 r j) := by
  obtain ⟨-, -, -, -, -, -, -, -, e0, e1, -⟩ := idx_in t
  unfold iblk0
  rw [View.read_apply]
  show V c main_arg4 _ = V c main_arg4 _
  congr 1
  funext a
  apply Fin.ext
  match a with
  | ⟨0, _⟩ => show win0_4.index t (0 : Fin 2) * 128 + 1 * r.val = r.val; rw [e0]; omega
  | ⟨1, _⟩ => show win0_4.index t (1 : Fin 2) * 128 + 1 * j.val = j.val; rw [e1]; omega

/-- The second bias row is read whole. -/
theorem blk_b2 (c : Dev nD) (t : Fin cfg0.N) (j : Fin 128) :
    iblk0 V c 5 t (ix2 (0 : Fin 1) j) = V c main_v15 (ix2 (0 : Fin 1) j) := by
  obtain ⟨-, -, -, -, -, -, -, -, -, -, e0, e1⟩ := idx_in t
  unfold iblk0
  rw [View.read_apply]
  show V c main_v15 _ = V c main_v15 _
  congr 1
  funext a
  apply Fin.ext
  match a with
  | ⟨0, _⟩ => show win0_5.index t (0 : Fin 2) * 1 + 1 * 0 = 0; rw [e0]
  | ⟨1, _⟩ => show win0_5.index t (1 : Fin 2) * 128 + 1 * j.val = j.val; rw [e1]; omega

/-! ## What a point computes -/

/-- The body's activations at (p, e), when its six operands are read off matrices and rows entry by entry: row p
    of x and of a are row r of X and of A. -/
theorem pay5_of_reads (x a : FVec Ideal S5000x128 .f32) (w1 w2 : FVec Ideal S128x128 .f32) (c1 c2 : FVec Ideal S1x128 .f32)
    (X A : Mat 100000 128) (W1 W2 : Mat 128 128) (B1 B2 : Row 128) (p : Fin 5000) (e : Fin 128) (r : Fin 100000)
    (hx : ∀ j : Fin 128, x (ix2 p j) = X r j) (ha : ∀ j : Fin 128, a (ix2 p j) = A r j)
    (hw1 : ∀ (i j : Fin 128), w1 (ix2 i j) = W1 i j) (hw2 : ∀ (i j : Fin 128), w2 (ix2 i j) = W2 i j)
    (hc1 : ∀ j : Fin 128, c1 (ix2 (0 : Fin 1) j) = B1 j) (hc2 : ∀ j : Fin 128, c2 (ix2 (0 : Fin 1) j) = B2 j) :
    k0_pay5 (F := Ideal) x a w1 w2 c1 c2 (ix2 p e) = hidden X A W1 B1 W2 B2 r e := by
  refine (StatsBody.pay5_apply x a w1 w2 c1 c2 p e).trans ?_
  have e1 : toMat w1 = W1 := funext fun i => funext fun j => hw1 i j
  have e2 : toMat w2 = W2 := funext fun i => funext fun j => hw2 i j
  have e3 : rowOf c1 = B1 := funext fun j => hc1 j
  have e4 : rowOf c2 = B2 := funext fun j => hc2 j
  have e5 : (fun j : Fin 128 => x (ix2 p j) + a (ix2 p j)) = fun j : Fin 128 => X r j + A r j :=
    funext fun j => by rw [hx j, ha j]
  rw [e1, e2, e3, e4, e5]
  rfl

/-- Entry (p, e) of the body's activations at point t is entry (5000 t + p, e) of the activations. -/
theorem act_block (c : Dev nD) (t : Fin cfg0.N) (p : Fin 5000) (e : Fin 128) (h : t.val * 5000 + p.val < 100000) :
    k0_pay5 (F := Ideal) (iblk0 V c 0 t) (iblk0 V c 1 t) (iblk0 V c 2 t) (iblk0 V c 4 t) (iblk0 V c 3 t) (iblk0 V c 5 t) (ix2 p e)
      = act V c ⟨t.val * 5000 + p.val, h⟩ e :=
  pay5_of_reads (iblk0 V c 0 t) (iblk0 V c 1 t) (iblk0 V c 2 t) (iblk0 V c 4 t) (iblk0 V c 3 t) (iblk0 V c 5 t)
    (toMat (V c main_arg0)) (toMat (V c main_v13)) (toMat (V c main_arg2)) (toMat (V c main_arg4)) (rowOf (V c main_v14)) (rowOf (V c main_v15))
    p e ⟨t.val * 5000 + p.val, h⟩
    (fun j => blk_x V c t p j h) (fun j => blk_a V c t p j h) (fun i j => blk_w1 V c t i j) (fun i j => blk_w2 V c t i j)
    (fun j => blk_b1 V c t j) (fun j => blk_b2 V c t j)

/-- The sum of column e over block n of a matrix of 20 blocks of 5000 rows (zero past the last block), and the same
    for the squares. -/
def blockSum (H : Mat 100000 128) (n : ℕ) (e : Fin 128) : EReal :=
  if h : n < 20 then ∑ p : Fin 5000, H ⟨n * 5000 + p.val, by have := p.isLt; omega⟩ e else 0
def blockSq (H : Mat 100000 128) (n : ℕ) (e : Fin 128) : EReal :=
  if h : n < 20 then ∑ p : Fin 5000, H ⟨n * 5000 + p.val, by have := p.isLt; omega⟩ e * H ⟨n * 5000 + p.val, by have := p.isLt; omega⟩ e else 0

/-- The body's column sums at point t are those of block t of the activations. -/
theorem sum_block (c : Dev nD) (t : Fin cfg0.N) (e : Fin 128) :
    k0_pay7 (F := Ideal) (iblk0 V c 0 t) (iblk0 V c 1 t) (iblk0 V c 2 t) (iblk0 V c 4 t) (iblk0 V c 3 t) (iblk0 V c 5 t) (ix2 (0 : Fin 1) e) = blockSum (act V c) t.val e := by
  have hN : t.val < 20 := lt_of_lt_of_eq t.isLt (show cfg0.N = 20 from N_0)
  refine (StatsBody.pay7_apply (iblk0 V c 0 t) (iblk0 V c 1 t) (iblk0 V c 2 t) (iblk0 V c 4 t) (iblk0 V c 3 t) (iblk0 V c 5 t) e).trans ?_
  unfold blockSum
  rw [dif_pos hN]
  exact Finset.sum_congr rfl fun p _ => act_block V c t p e _

/-- The body's column sums of squares at point t are those of block t of the activations. -/
theorem sq_block (c : Dev nD) (t : Fin cfg0.N) (e : Fin 128) :
    k0_pay8 (F := Ideal) (iblk0 V c 0 t) (iblk0 V c 1 t) (iblk0 V c 2 t) (iblk0 V c 4 t) (iblk0 V c 3 t) (iblk0 V c 5 t) (ix2 (0 : Fin 1) e) = blockSq (act V c) t.val e := by
  have hN : t.val < 20 := lt_of_lt_of_eq t.isLt (show cfg0.N = 20 from N_0)
  refine (StatsBody.pay8_apply (iblk0 V c 0 t) (iblk0 V c 1 t) (iblk0 V c 2 t) (iblk0 V c 4 t) (iblk0 V c 3 t) (iblk0 V c 5 t) e).trans ?_
  unfold blockSq
  rw [dif_pos hN]
  exact Finset.sum_congr rfl fun p _ => by rw [act_block V c t p e _]

/-! ## What a point leaves in the results' buffers -/

/-- The first result's buffer: the block of activations, whichever case the point is. -/
theorem outs6 (c : Dev nD) (t : Fin cfg0.N) :
    (outsAt0 V c t.val t.isLt).1 = k0_pay6 (F := Ideal) (iblk0 V c 0 t) (iblk0 V c 1 t) (iblk0 V c 2 t) (iblk0 V c 4 t) (iblk0 V c 3 t) (iblk0 V c 5 t) := by
  by_cases h0 : t.val % 10 = 0
  · rw [outsAt0_A V c t h0]
    dsimp only
    exact StatsPieces.out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)
  · rw [outsAt0_B V c t h0]
    dsimp only
    exact StatsPieces.out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2

/-- The sums' buffer at a core's first block: zero plus the block's column sums. -/
theorem outs7_A (c : Dev nD) (t : Fin cfg0.N) (h0 : t.val % 10 = 0) :
    (outsAt0 V c t.val t.isLt).2.1 = k0_pay1 (F := Ideal) (k0_pay7 (iblk0 V c 0 t) (iblk0 V c 1 t) (iblk0 V c 2 t) (iblk0 V c 4 t) (iblk0 V c 3 t) (iblk0 V c 5 t)) (k0_pay3 (F := Ideal)) := by
  rw [outsAt0_A V c t h0]
  dsimp only
  exact StatsPieces.out_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)

/-- The sums' buffer at a later block: what the block before left plus the block's column sums. -/
theorem outs7_B (c : Dev nD) (t : Fin cfg0.N) (h0 : ¬t.val % 10 = 0) :
    (outsAt0 V c t.val t.isLt).2.1 = k0_pay1 (F := Ideal) (k0_pay7 (iblk0 V c 0 t) (iblk0 V c 1 t) (iblk0 V c 2 t) (iblk0 V c 4 t) (iblk0 V c 3 t) (iblk0 V c 5 t)) (outsAt0 V c (t.val - 1) (Nat.lt_of_le_of_lt (Nat.sub_le _ _) t.isLt)).2.1 := by
  rw [outsAt0_B V c t h0]
  dsimp only
  exact StatsPieces.out_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2

/-- The squares' buffer at a core's first block. -/
theorem outs8_A (c : Dev nD) (t : Fin cfg0.N) (h0 : t.val % 10 = 0) :
    (outsAt0 V c t.val t.isLt).2.2 = k0_pay2 (F := Ideal) (k0_pay8 (iblk0 V c 0 t) (iblk0 V c 1 t) (iblk0 V c 2 t) (iblk0 V c 4 t) (iblk0 V c 3 t) (iblk0 V c 5 t)) (k0_pay4 (F := Ideal)) := by
  rw [outsAt0_A V c t h0]
  dsimp only
  exact StatsPieces.out_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)

/-- The squares' buffer at a later block. -/
theorem outs8_B (c : Dev nD) (t : Fin cfg0.N) (h0 : ¬t.val % 10 = 0) :
    (outsAt0 V c t.val t.isLt).2.2 = k0_pay2 (F := Ideal) (k0_pay8 (iblk0 V c 0 t) (iblk0 V c 1 t) (iblk0 V c 2 t) (iblk0 V c 4 t) (iblk0 V c 3 t) (iblk0 V c 5 t)) (outsAt0 V c (t.val - 1) (Nat.lt_of_le_of_lt (Nat.sub_le _ _) t.isLt)).2.2 := by
  rw [outsAt0_B V c t h0]
  dsimp only
  exact StatsPieces.out_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2

/-! ## The accumulators entry by entry -/

/-- The sums after a core's first block: that block's column sums. -/
theorem acc7_A (c : Dev nD) (t : Fin cfg0.N) (h0 : t.val % 10 = 0) (e : Fin 128) :
    (outsAt0 V c t.val t.isLt).2.1 (ix3 (0 : Fin 1) (0 : Fin 1) e) = blockSum (act V c) t.val e := by
  rw [outs7_A V c t h0]
  refine (StatsBody.pay1_apply _ _ e).trans ?_
  rw [StatsBody.pay3_apply, zero_add]
  exact sum_block V c t e

/-- The sums after a later block: one more block's column sums. -/
theorem acc7_B (c : Dev nD) (t : Fin cfg0.N) (h0 : ¬t.val % 10 = 0) (e : Fin 128) :
    (outsAt0 V c t.val t.isLt).2.1 (ix3 (0 : Fin 1) (0 : Fin 1) e)
      = (outsAt0 V c (t.val - 1) (Nat.lt_of_le_of_lt (Nat.sub_le _ _) t.isLt)).2.1 (ix3 (0 : Fin 1) (0 : Fin 1) e) + blockSum (act V c) t.val e := by
  rw [outs7_B V c t h0]
  refine (StatsBody.pay1_apply _ _ e).trans ?_
  rw [sum_block V c t e]

/-- The sums of squares after a core's first block. -/
theorem acc8_A (c : Dev nD) (t : Fin cfg0.N) (h0 : t.val % 10 = 0) (e : Fin 128) :
    (outsAt0 V c t.val t.isLt).2.2 (ix3 (0 : Fin 1) (0 : Fin 1) e) = blockSq (act V c) t.val e := by
  rw [outs8_A V c t h0]
  refine (StatsBody.pay2_apply _ _ e).trans ?_
  rw [StatsBody.pay4_apply, zero_add]
  exact sq_block V c t e

/-- The sums of squares after a later block. -/
theorem acc8_B (c : Dev nD) (t : Fin cfg0.N) (h0 : ¬t.val % 10 = 0) (e : Fin 128) :
    (outsAt0 V c t.val t.isLt).2.2 (ix3 (0 : Fin 1) (0 : Fin 1) e)
      = (outsAt0 V c (t.val - 1) (Nat.lt_of_le_of_lt (Nat.sub_le _ _) t.isLt)).2.2 (ix3 (0 : Fin 1) (0 : Fin 1) e) + blockSq (act V c) t.val e := by
  rw [outs8_B V c t h0]
  refine (StatsBody.pay2_apply _ _ e).trans ?_
  rw [sq_block V c t e]

end Cert.KernelIdeal.StatsBlocks

end
-- ==== Proof.StatsRegion.lean ====
/-
  What the statistics kernel leaves in its three result arrays.

  Block t of the activations is the two layers applied to rows 5000 t … 5000 t + 4999 of x + a; each core's row of
  the two statistics arrays is the sum over that core's ten blocks of the block's column sums (of the values, and
  of their squares), accumulated point by point from zero and written back after the core's last point.
-/
import proofs.«106001_j82042465288993_2_alg».proof.Proof.Gen.KernelIdeal.Frame
import proofs.«106001_j82042465288993_2_alg».proof.Proof.StatsBody
import proofs.«106001_j82042465288993_2_alg».proof.Proof.StatsBlocks
import proofs.«106001_j82042465288993_2_alg».proof.Proof.Spec
import Idealize.ShloMosaic.Lib.Pipeline.Value

noncomputable section

open scoped BigOperators

namespace Cert.KernelIdeal.StatsRegion

open Cert.KernelIdeal Cert.KernelIdeal.Gen Cert.GinNorm
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The activations of all 100000 rows, from the contents the region is entered with. -/
def hid (c : Dev nD) : Mat 100000 128 :=
  hidden (toMat (V c main_arg0)) (toMat (V c main_v13)) (toMat (V c main_arg2)) (rowOf (V c main_v14))
    (toMat (V c main_arg4)) (rowOf (V c main_v15))

theorem hid_eq (c : Dev nD) : StatsBlocks.act V c = hid V c := rfl

/-! ## The running sums: after point n, the blocks of n's core up to n -/

/-- The sums' buffer after point n holds the column sums of the blocks from the first of n's core up to n. -/
theorem acc7 (c : Dev nD) (e : Fin 128) (n : ℕ) : ∀ h : n < cfg0.N,
    (outsAt0 V c n h).2.1 (ix3 (0 : Fin 1) (0 : Fin 1) e)
      = ∑ s ∈ Finset.range (n % 10 + 1), StatsBlocks.blockSum (hid V c) (n - n % 10 + s) e := by
  induction n with
  | zero =>
    intro h
    have h0 : 0 % 10 = 0 := rfl
    simp only [h0, Nat.zero_add, Finset.sum_range_one, Nat.sub_zero, Nat.add_zero]
    exact StatsBlocks.acc7_A V c ⟨0, h⟩ h0 e
  | succ n ih =>
    intro h
    by_cases h0 : (n + 1) % 10 = 0
    · simp only [h0, Nat.zero_add, Finset.sum_range_one, Nat.sub_zero, Nat.add_zero]
      exact StatsBlocks.acc7_A V c ⟨n + 1, h⟩ h0 e
    · have e1 : (n + 1) % 10 = n % 10 + 1 := by omega
      have e2 : n + 1 - (n % 10 + 1) = n - n % 10 := by omega
      have e3 : n - n % 10 + (n % 10 + 1) = n + 1 := by omega
      rw [e1, e2, Finset.sum_range_succ, ← ih (Nat.lt_of_succ_lt h), e3]
      exact StatsBlocks.acc7_B V c ⟨n + 1, h⟩ h0 e

/-- The squares' buffer after point n holds the column sums of squares of the same blocks. -/
theorem acc8 (c : Dev nD) (e : Fin 128) (n : ℕ) : ∀ h : n < cfg0.N,
    (outsAt0 V c n h).2.2 (ix3 (0 : Fin 1) (0 : Fin 1) e)
      = ∑ s ∈ Finset.range (n % 10 + 1), StatsBlocks.blockSq (hid V c) (n - n % 10 + s) e := by
  induction n with
  | zero =>
    intro h
    have h0 : 0 % 10 = 0 := rfl
    simp only [h0, Nat.zero_add, Finset.sum_range_one, Nat.sub_zero, Nat.add_zero]
    exact StatsBlocks.acc8_A V c ⟨0, h⟩ h0 e
  | succ n ih =>
    intro h
    by_cases h0 : (n + 1) % 10 = 0
    · simp only [h0, Nat.zero_add, Finset.sum_range_one, Nat.sub_zero, Nat.add_zero]
      exact StatsBlocks.acc8_A V c ⟨n + 1, h⟩ h0 e
    · have e1 : (n + 1) % 10 = n % 10 + 1 := by omega
      have e2 : n + 1 - (n % 10 + 1) = n - n % 10 := by omega
      have e3 : n - n % 10 + (n % 10 + 1) = n + 1 := by omega
      rw [e1, e2, Finset.sum_range_succ, ← ih (Nat.lt_of_succ_lt h), e3]
      exact StatsBlocks.acc8_B V c ⟨n + 1, h⟩ h0 e

/-- A core's ten blocks' column sums add up to the core's share of the column sum; the same for the squares. -/
theorem blockSums_core (H : Mat 100000 128) (k : Fin 2) (e : Fin 128) :
    ∑ s ∈ Finset.range 10, StatsBlocks.blockSum H (10 * k.val + s) e = coreSum H k e := by
  rw [Finset.sum_range]
  unfold coreSum
  refine Finset.sum_congr rfl fun i _ => ?_
  unfold StatsBlocks.blockSum
  rw [dif_pos (by have := k.isLt; have := i.isLt; omega)]
  refine Finset.sum_congr rfl fun p _ => ?_
  exact congrArg (fun r => H r e) (Fin.ext (by
    show (10 * k.val + i.val) * 5000 + p.val = (k.val * 10 + i.val) * 5000 + p.val
    omega))
theorem blockSqs_core (H : Mat 100000 128) (k : Fin 2) (e : Fin 128) :
    ∑ s ∈ Finset.range 10, StatsBlocks.blockSq H (10 * k.val + s) e = coreSq H k e := by
  rw [Finset.sum_range]
  unfold coreSq
  refine Finset.sum_congr rfl fun i _ => ?_
  unfold StatsBlocks.blockSq
  rw [dif_pos (by have := k.isLt; have := i.isLt; omega)]
  refine Finset.sum_congr rfl fun p _ => ?_
  have hr : (⟨(10 * k.val + i.val) * 5000 + p.val, by have := k.isLt; have := i.isLt; have := p.isLt; omega⟩ : Fin 100000) = node k i p :=
    Fin.ext (by
      show (10 * k.val + i.val) * 5000 + p.val = (k.val * 10 + i.val) * 5000 + p.val
      omega)
  exact congrArg (fun r => H r e * H r e) hr

/-! ## The activations' array -/

/-- What point t writes back to the first result array is block t of the activations. -/
theorem flushed6 (c : Dev nD) (t : Fin cfg0.N) :
    (dat0 V c).flushed 6 t = ((cfg0.win 6).blk t).view.read (Elt Ideal) (ofMat (hid V c)) := by
  have hN : t.val < 20 := lt_of_lt_of_eq t.isLt (show cfg0.N = 20 from N_0)
  obtain ⟨e0, e1, -⟩ := StatsBlocks.idx_out t
  show (cfg0.win 6).cut (grid0.coords t) ((dat0 V c).after 6 t) = _
  rw [after0_6, StatsBlocks.outs6 V c t]
  funext y
  obtain ⟨p, e, rfl⟩ : ∃ (p : Fin 5000) (e : Fin 128), y = ix2 p e := ⟨y 0, y 1, eq_ix2 (n0 := 5000) (n1 := 128) y⟩
  have hp := p.isLt
  rw [View.read_apply]
  have hemb : ((cfg0.win 6).blk t).view.emb (ix2 p e) = ix2 (⟨t.val * 5000 + p.val, by omega⟩ : Fin 100000) e := by
    funext d
    apply Fin.ext
    match d with
    | ⟨0, _⟩ => show win0_6.index t (0 : Fin 2) * 5000 + 1 * p.val = t.val * 5000 + p.val; rw [e0]; omega
    | ⟨1, _⟩ => show win0_6.index t (1 : Fin 2) * 128 + 1 * e.val = e.val; rw [e1]; omega
  rw [hemb]
  show k0_pay6 (F := Ideal) (iblk0 V c 0 t) (iblk0 V c 1 t) (iblk0 V c 2 t) (iblk0 V c 4 t) (iblk0 V c 3 t) (iblk0 V c 5 t) (ix2 p e)
    = hid V c ⟨t.val * 5000 + p.val, by omega⟩ e
  exact (StatsBody.pay6_apply (iblk0 V c 0 t) (iblk0 V c 1 t) (iblk0 V c 2 t) (iblk0 V c 4 t) (iblk0 V c 3 t) (iblk0 V c 5 t) p e).trans
    (StatsBlocks.act_block V c t p e _)

/-- The first result array ends holding the activations. -/
theorem arr6 (c : Dev nD) : (dat0 V c).arrAt 6 cfg0.N = ofMat (hid V c) := by
  refine (dat0 V c).arrAt_eq_of_cover 6 (ofMat (hid V c)) (fun t _ => flushed6 V c t) fun i => ?_
  have hi0 : (i 0 : Nat) < 100000 := (i 0).isLt
  have hi1 : (i 1 : Nat) < 128 := (i 1).isLt
  obtain ⟨t, ht⟩ : ∃ t : Fin cfg0.N, t.val = (i 0 : Nat) / 5000 :=
    ⟨⟨(i 0 : Nat) / 5000, by rw [show cfg0.N = 20 from N_0]; omega⟩, rfl⟩
  obtain ⟨e0, e1, -⟩ := StatsBlocks.idx_out t
  refine ⟨t, flush0_6 t, ?_⟩
  show i ∈ ((View.whole main_v18_0).slice (win0_6.rect t)).set
  rw [View.set_slice_whole, Rect.mem_set_unit]
  intro a
  match a with
  | ⟨0, _⟩ =>
    show win0_6.index t (0 : Fin 2) * 5000 ≤ (i 0 : Nat) ∧ (i 0 : Nat) < win0_6.index t (0 : Fin 2) * 5000 + 5000
    rw [e0, ht]; omega
  | ⟨1, _⟩ =>
    show win0_6.index t (1 : Fin 2) * 128 ≤ (i 1 : Nat) ∧ (i 1 : Nat) < win0_6.index t (1 : Fin 2) * 128 + 128
    rw [e1]; omega

/-! ## The two statistics arrays -/

/-- The cores' shares of the column sums, and of the column sums of squares, as arrays of two rows. -/
def sums (c : Dev nD) : S2x1x128.Idx → EReal := fun i => coreSum (hid V c) (i 0) (i 2)
def sqs (c : Dev nD) : S2x1x128.Idx → EReal := fun i => coreSq (hid V c) (i 0) (i 2)

/-- A core's last point writes the core's share back to the core's row of the second result array. -/
theorem flushed7 (c : Dev nD) (t : Fin cfg0.N) (hf : (cfg0.win 7).flush t = true) :
    (dat0 V c).flushed 7 t = ((cfg0.win 7).blk t).view.read (Elt Ideal) (sums V c) := by
  have h9 : t.val % 10 = 9 := (flush0_7 t).mp hf
  have hN : t.val < 20 := lt_of_lt_of_eq t.isLt (show cfg0.N = 20 from N_0)
  obtain ⟨-, -, e0, e1, e2, -⟩ := StatsBlocks.idx_out t
  show (cfg0.win 7).cut (grid0.coords t) ((dat0 V c).after 7 t) = _
  rw [after0_7]
  funext y
  obtain ⟨a, b, e, rfl⟩ : ∃ (a : Fin 1) (b : Fin 1) (e : Fin 128), y = ix3 a b e :=
    ⟨y 0, y 1, y 2, eq_ix3 (n0 := 1) (n1 := 1) (n2 := 128) y⟩
  obtain rfl : a = 0 := Subsingleton.elim _ _
  obtain rfl : b = 0 := Subsingleton.elim _ _
  rw [View.read_apply]
  have hemb : ((cfg0.win 7).blk t).view.emb (ix3 (0 : Fin 1) (0 : Fin 1) e) = ix3 (⟨t.val / 10, by omega⟩ : Fin 2) (0 : Fin 1) e := by
    funext d
    apply Fin.ext
    match d with
    | ⟨0, _⟩ => show win0_7.index t (0 : Fin 3) * 1 + 1 * 0 = t.val / 10; rw [e0]; omega
    | ⟨1, _⟩ => show win0_7.index t (1 : Fin 3) * 1 + 1 * 0 = 0; rw [e1]
    | ⟨2, _⟩ => show win0_7.index t (2 : Fin 3) * 128 + 1 * e.val = e.val; rw [e2]; omega
  rw [hemb]
  show (outsAt0 V c t.val t.isLt).2.1 (ix3 (0 : Fin 1) (0 : Fin 1) e) = coreSum (hid V c) ⟨t.val / 10, by omega⟩ e
  refine (acc7 V c e t.val t.isLt).trans ?_
  have e3 : t.val - 9 = 10 * (t.val / 10) := by omega
  rw [h9, e3]
  exact blockSums_core (hid V c) ⟨t.val / 10, by omega⟩ e

/-- The same for the third result array. -/
theorem flushed8 (c : Dev nD) (t : Fin cfg0.N) (hf : (cfg0.win 8).flush t = true) :
    (dat0 V c).flushed 8 t = ((cfg0.win 8).blk t).view.read (Elt Ideal) (sqs V c) := by
  have h9 : t.val % 10 = 9 := (flush0_8 t).mp hf
  have hN : t.val < 20 := lt_of_lt_of_eq t.isLt (show cfg0.N = 20 from N_0)
  obtain ⟨-, -, -, -, -, e0, e1, e2⟩ := StatsBlocks.idx_out t
  show (cfg0.win 8).cut (grid0.coords t) ((dat0 V c).after 8 t) = _
  rw [after0_8]
  funext y
  obtain ⟨a, b, e, rfl⟩ : ∃ (a : Fin 1) (b : Fin 1) (e : Fin 128), y = ix3 a b e :=
    ⟨y 0, y 1, y 2, eq_ix3 (n0 := 1) (n1 := 1) (n2 := 128) y⟩
  obtain rfl : a = 0 := Subsingleton.elim _ _
  obtain rfl : b = 0 := Subsingleton.elim _ _
  rw [View.read_apply]
  have hemb : ((cfg0.win 8).blk t).view.emb (ix3 (0 : Fin 1) (0 : Fin 1) e) = ix3 (⟨t.val / 10, by omega⟩ : Fin 2) (0 : Fin 1) e := by
    funext d
    apply Fin.ext
    match d with
    | ⟨0, _⟩ => show win0_8.index t (0 : Fin 3) * 1 + 1 * 0 = t.val / 10; rw [e0]; omega
    | ⟨1, _⟩ => show win0_8.index t (1 : Fin 3) * 1 + 1 * 0 = 0; rw [e1]
    | ⟨2, _⟩ => show win0_8.index t (2 : Fin 3) * 128 + 1 * e.val = e.val; rw [e2]; omega
  rw [hemb]
  show (outsAt0 V c t.val t.isLt).2.2 (ix3 (0 : Fin 1) (0 : Fin 1) e) = coreSq (hid V c) ⟨t.val / 10, by omega⟩ e
  refine (acc8 V c e t.val t.isLt).trans ?_
  have e3 : t.val - 9 = 10 * (t.val / 10) := by omega
  rw [h9, e3]
  exact blockSqs_core (hid V c) ⟨t.val / 10, by omega⟩ e

/-- Row k of either statistics array is covered by the block of core k's last point, 10 k + 9. -/
theorem sums_eq (c : Dev nD) : (dat0 V c).arrAt 7 cfg0.N = sums V c := by
  refine (dat0 V c).arrAt_eq_of_cover 7 (sums V c) (flushed7 V c) fun i => ?_
  have hi0 : (i 0 : Nat) < 2 := (i 0).isLt
  have hi1 : (i 1 : Nat) < 1 := (i 1).isLt
  have hi2 : (i 2 : Nat) < 128 := (i 2).isLt
  obtain ⟨t, ht⟩ : ∃ t : Fin cfg0.N, t.val = 10 * (i 0 : Nat) + 9 :=
    ⟨⟨10 * (i 0 : Nat) + 9, by rw [show cfg0.N = 20 from N_0]; omega⟩, rfl⟩
  obtain ⟨-, -, e0, e1, e2, -⟩ := StatsBlocks.idx_out t
  refine ⟨t, (flush0_7 t).mpr (by omega), ?_⟩
  show i ∈ ((View.whole main_v18_1).slice (win0_7.rect t)).set
  rw [View.set_slice_whole, Rect.mem_set_unit]
  intro a
  match a with
  | ⟨0, _⟩ =>
    show win0_7.index t (0 : Fin 3) * 1 ≤ (i 0 : Nat) ∧ (i 0 : Nat) < win0_7.index t (0 : Fin 3) * 1 + 1
    rw [e0, ht]; omega
  | ⟨1, _⟩ =>
    show win0_7.index t (1 : Fin 3) * 1 ≤ (i 1 : Nat) ∧ (i 1 : Nat) < win0_7.index t (1 : Fin 3) * 1 + 1
    rw [e1]; omega
  | ⟨2, _⟩ =>
    show win0_7.index t (2 : Fin 3) * 128 ≤ (i 2 : Nat) ∧ (i 2 : Nat) < win0_7.index t (2 : Fin 3) * 128 + 128
    rw [e2]; omega

theorem sqs_eq (c : Dev nD) : (dat0 V c).arrAt 8 cfg0.N = sqs V c := by
  refine (dat0 V c).arrAt_eq_of_cover 8 (sqs V c) (flushed8 V c) fun i => ?_
  have hi0 : (i 0 : Nat) < 2 := (i 0).isLt
  have hi1 : (i 1 : Nat) < 1 := (i 1).isLt
  have hi2 : (i 2 : Nat) < 128 := (i 2).isLt
  obtain ⟨t, ht⟩ : ∃ t : Fin cfg0.N, t.val = 10 * (i 0 : Nat) + 9 :=
    ⟨⟨10 * (i 0 : Nat) + 9, by rw [show cfg0.N = 20 from N_0]; omega⟩, rfl⟩
  obtain ⟨-, -, -, -, -, e0, e1, e2⟩ := StatsBlocks.idx_out t
  refine ⟨t, (flush0_8 t).mpr (by omega), ?_⟩
  show i ∈ ((View.whole main_v18_2).slice (win0_8.rect t)).set
  rw [View.set_slice_whole, Rect.mem_set_unit]
  intro a
  match a with
  | ⟨0, _⟩ =>
    show win0_8.index t (0 : Fin 3) * 1 ≤ (i 0 : Nat) ∧ (i 0 : Nat) < win0_8.index t (0 : Fin 3) * 1 + 1
    rw [e0, ht]; omega
  | ⟨1, _⟩ =>
    show win0_8.index t (1 : Fin 3) * 1 ≤ (i 1 : Nat) ∧ (i 1 : Nat) < win0_8.index t (1 : Fin 3) * 1 + 1
    rw [e1]; omega
  | ⟨2, _⟩ =>
    show win0_8.index t (2 : Fin 3) * 128 ≤ (i 2 : Nat) ∧ (i 2 : Nat) < win0_8.index t (2 : Fin 3) * 128 + 128
    rw [e2]; omega

/-- Row k of the second result array ends holding core k's column sums. -/
theorem arr7 (c : Dev nD) (k : Fin 2) (e : Fin 128) :
    (dat0 V c).arrAt 7 cfg0.N (ix3 k (0 : Fin 1) e) = coreSum (hid V c) k e :=
  congrFun (sums_eq V c) (ix3 k (0 : Fin 1) e)

/-- Row k of the third result array ends holding core k's column sums of squares. -/
theorem arr8 (c : Dev nD) (k : Fin 2) (e : Fin 128) :
    (dat0 V c).arrAt 8 cfg0.N (ix3 k (0 : Fin 1) e) = coreSq (hid V c) k e :=
  congrFun (sqs_eq V c) (ix3 k (0 : Fin 1) e)

end Cert.KernelIdeal.StatsRegion

end
-- ==== Proof.NormRegion.lean ====
/-
  What the normalising kernel leaves in its result array: every entry of the stored activations minus its column's
  mean, times the column's factor, times γ, plus β — block by block, the blocks tiling the array.
-/
import proofs.«106001_j82042465288993_2_alg».proof.Proof.Gen.KernelIdeal.Frame
import proofs.«106001_j82042465288993_2_alg».proof.Proof.Spec
import Idealize.ShloMosaic.Lib.Pipeline.Value
import Idealize.ShloMosaic.Lib.ValueLayout

noncomputable section

namespace Cert.KernelIdeal.NormRegion

open Cert.KernelIdeal Cert.KernelIdeal.Gen Cert.GinNorm
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's one store and its five loads start at offset (0, 0). -/
theorem zero_offsets : (![0, 0] : Fin 2 → Nat) = fun _ => 0 := funext fun a => by fin_cases a <;> rfl

/-- The body's arithmetic at entry (p, e) of a block: the activation minus the mean row's entry e, times the factor
    row's, times γ's, plus β's. The change of float format is the identity on the extended reals, and each of the four
    [1, 128] rows is repeated down the 5000 rows of the block. -/
theorem payload_apply (h : Vec Ideal S5000x128 .bf16) (mu s g b : Vec Ideal S1x128 .f32) (p : Fin 5000) (e : Fin 128) :
    k1_pay1 h mu s g b (ix2 p e)
      = ((h (ix2 p e) - mu (ix2 (0 : Fin 1) e)) * s (ix2 (0 : Fin 1) e)) * g (ix2 (0 : Fin 1) e) + b (ix2 (0 : Fin 1) e) := by
  unfold k1_pay1
  simp only [shapeCast_self]
  rw [addf_apply, mulf_apply, mulf_apply, subf_apply, extf_apply,
    broadcastTo_1b_ab_apply, broadcastTo_1b_ab_apply, broadcastTo_1b_ab_apply, broadcastTo_1b_ab_apply]

/-- The block indices at grid point t, over the 20 points: the activations' window and the result's window are both
    at block (t, 0); each of the four row windows stays at block (0, 0). -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- One entry of a block against one entry of the whole arrays: if the activations' block at j is the array H at i,
    and each row's block at column j₁ is that row's array at column i₁, then the body's result at j is the
    normalised matrix's entry i. -/
theorem entry_eq (h : Vec Ideal S5000x128 .bf16) (mu s g b : Vec Ideal S1x128 .f32)
    (H : S100000x128.Idx → EReal) (Mu Sg Ga Be : S1x128.Idx → EReal) (j : S5000x128.Idx) (i : S100000x128.Idx)
    (hh : h j = H i) (hmu : mu (ix2 (0 : Fin 1) (j 1)) = Mu (ix2 (0 : Fin 1) (i 1)))
    (hs : s (ix2 (0 : Fin 1) (j 1)) = Sg (ix2 (0 : Fin 1) (i 1)))
    (hg : g (ix2 (0 : Fin 1) (j 1)) = Ga (ix2 (0 : Fin 1) (i 1)))
    (hb : b (ix2 (0 : Fin 1) (j 1)) = Be (ix2 (0 : Fin 1) (i 1))) :
    k1_pay1 h mu s g b j = ofMat (normalize (toMat H) (rowOf Mu) (rowOf Sg) (rowOf Ga) (rowOf Be)) i := by
  refine (congrArg (k1_pay1 h mu s g b) (eq_ix2 j)).trans ((payload_apply h mu s g b (j 0) (j 1)).trans ?_)
  have e2 : h (ix2 (j 0) (j 1)) = H (ix2 (i 0) (i 1)) :=
    ((congrArg h (eq_ix2 j).symm).trans hh).trans (congrArg H (eq_ix2 i))
  exact congrArg₂ (· + ·) (congrArg₂ (· * ·) (congrArg₂ (· * ·) (congrArg₂ (· - ·) e2 hmu) hs) hg) hb

/-- What grid point t writes back is block t of the normalised matrix: entry j of the block sits at row
    5000 t + j₀ and column j₁ of the array, the activations' block is read at the same place, and each row's block
    is the whole row. -/
theorem written_block (c : Dev nD) (t : Fin cfg1.N) :
    (dat1 V c).flushed 5 t = ((cfg1.win 5).blk t).view.read (Elt Ideal)
      (ofMat (normalize (toMat (V c main_v18_0)) (rowOf (V c main_v32)) (rowOf (V c main_v33))
          (rowOf (V c main_v16)) (rowOf (V c main_v17)))) := by
  show (cfg1.win 5).cut (grid1.coords t) ((dat1 V c).after 5 t) = _
  rw [after1_5]
  unfold out1_5
  rw [View.canon_unit_zero zero_offsets]
  simp only [View.ld_unit_zero (S := S5000x128) zero_offsets, View.ld_unit_zero (S := S1x128) zero_offsets]
  obtain ⟨e00, e01, e10, e11, e20, e21, e30, e31, e40, e41, e50, e51⟩ := block_indices t
  funext j
  refine entry_eq (iblk1 V c 0 t) (iblk1 V c 1 t) (iblk1 V c 2 t) (iblk1 V c 3 t) (iblk1 V c 4 t)
    (V c main_v18_0) (V c main_v32) (V c main_v33) (V c main_v16) (V c main_v17) j (((cfg1.win 5).blk t).view.emb j) ?_ ?_ ?_ ?_ ?_
  · show V c main_v18_0 (((cfg1.win 0).blk t).view.emb j) = V c main_v18_0 (((cfg1.win 5).blk t).view.emb j)
    refine congrArg _ (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * (j 1).val = win1_5.index t (1 : Fin 2) * 128 + 1 * (j 1).val; omega
  · show V c main_v32 (((cfg1.win 1).blk t).view.emb (ix2 (0 : Fin 1) (j 1)))
      = V c main_v32 (ix2 (0 : Fin 1) (((cfg1.win 5).blk t).view.emb j 1))
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * (j 1).val = win1_5.index t (1 : Fin 2) * 128 + 1 * (j 1).val; omega
  · show V c main_v33 (((cfg1.win 2).blk t).view.emb (ix2 (0 : Fin 1) (j 1)))
      = V c main_v33 (ix2 (0 : Fin 1) (((cfg1.win 5).blk t).view.emb j 1))
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * (j 1).val = win1_5.index t (1 : Fin 2) * 128 + 1 * (j 1).val; omega
  · show V c main_v16 (((cfg1.win 3).blk t).view.emb (ix2 (0 : Fin 1) (j 1)))
      = V c main_v16 (ix2 (0 : Fin 1) (((cfg1.win 5).blk t).view.emb j 1))
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * (j 1).val = win1_5.index t (1 : Fin 2) * 128 + 1 * (j 1).val; omega
  · show V c main_v17 (((cfg1.win 4).blk t).view.emb (ix2 (0 : Fin 1) (j 1)))
      = V c main_v17 (ix2 (0 : Fin 1) (((cfg1.win 5).blk t).view.emb j 1))
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * (j 1).val = win1_5.index t (1 : Fin 2) * 128 + 1 * (j 1).val; omega

/-- An index of the result array is in point t's block iff each coordinate is in the block's range on its axis. -/
theorem mem_block (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v34).slice (win1_5.rect t)).set ↔ _
  rw [View.set_slice_whole, Rect.mem_set_unit]
  exact Iff.rfl

/-- The 20 blocks of 5000 rows tile the 100000 rows: row r is in the block of point r / 5000, and every point
    writes its block back. -/
theorem rows_covered (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, by rw [show cfg1.N = 20 from N_1]; omega⟩, rfl⟩
  obtain ⟨-, -, -, -, -, -, -, -, -, -, e50, e51⟩ := block_indices t
  refine ⟨t, flush1_5 t, ?_⟩
  rw [mem_block]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 128 ≤ (i 1).val ∧ (i 1).val < win1_5.index t (1 : Fin 2) * 128 + 128
    omega

/-- The result array ends holding the normalised activations, from the contents the region is entered with. -/
theorem arr5 (c : Dev nD) :
    (dat1 V c).arrAt 5 cfg1.N
      = ofMat (normalize (toMat (V c main_v18_0)) (rowOf (V c main_v32)) (rowOf (V c main_v33))
          (rowOf (V c main_v16)) (rowOf (V c main_v17))) :=
  (dat1 V c).arrAt_eq_of_cover 5 _ (fun t _ => written_block V c t) rows_covered

end Cert.KernelIdeal.NormRegion

end
-- ==== Proof.KernelValue.lean ====
/-
  The kernel program's result as one function of its arguments: the normalised activations with one-pass
  statistics, the neighbour sums being whatever the program's host lines make of the features and the edge list.
-/
import proofs.«106001_j82042465288993_2_alg».proof.Proof.KernelRun
import proofs.«106001_j82042465288993_2_alg».proof.Proof.KernelGlue
import proofs.«106001_j82042465288993_2_alg».proof.Proof.StatsRegion
import proofs.«106001_j82042465288993_2_alg».proof.Proof.NormRegion
import proofs.«106001_j82042465288993_2_alg».proof.Proof.Spec

noncomputable section

open scoped BigOperators

namespace Cert.KernelIdeal.Value

open Cert.KernelIdeal Cert.KernelIdeal.Gen Cert.GinNorm Cert.KernelIdeal.Glue
open Idealize.ShloMosaic Idealize.ShloMosaic.TcCoe Idealize.ShloMosaic.ValueIdx Idealize.SL.Sem

variable (m : (ℓ : Loc nD τ sig) → Buf (Elt Ideal) ℓ) (ρ : Dev nD → PrngReg)

/-- The activations before normalisation, as a function of the launch memory. -/
abbrev actK (c : Dev nD) : Mat 100000 128 :=
  hidden (toMat (m ((c.tc : Thread Cert.KernelIdeal.nD Cert.KernelIdeal.τ).loc Cert.KernelIdeal.main_arg0))) (toMat (aggK (m ((c.tc : Thread Cert.KernelIdeal.nD Cert.KernelIdeal.τ).loc Cert.KernelIdeal.main_arg0)) (m ((c.tc : Thread Cert.KernelIdeal.nD Cert.KernelIdeal.τ).loc Cert.KernelIdeal.main_arg1))))
    (toMat (m ((c.tc : Thread Cert.KernelIdeal.nD Cert.KernelIdeal.τ).loc Cert.KernelIdeal.main_arg2))) (toRow (m ((c.tc : Thread Cert.KernelIdeal.nD Cert.KernelIdeal.τ).loc Cert.KernelIdeal.main_arg3))) (toMat (m ((c.tc : Thread Cert.KernelIdeal.nD Cert.KernelIdeal.τ).loc Cert.KernelIdeal.main_arg4))) (toRow (m ((c.tc : Thread Cert.KernelIdeal.nD Cert.KernelIdeal.τ).loc Cert.KernelIdeal.main_arg5)))

/-- The first region computes its activations from the arguments and the neighbour sums. -/
theorem hid_eq (c : Dev nD) : StatsRegion.hid (V1 m ρ) c = actK m c := by
  have hb1 : rowOf (V1 m ρ c main_v14) = toRow (m ((c.tc : Thread Cert.KernelIdeal.nD Cert.KernelIdeal.τ).loc Cert.KernelIdeal.main_arg3)) := funext fun k => V1_b1 m ρ c k
  have hb2 : rowOf (V1 m ρ c main_v15) = toRow (m ((c.tc : Thread Cert.KernelIdeal.nD Cert.KernelIdeal.τ).loc Cert.KernelIdeal.main_arg5)) := funext fun k => V1_b2 m ρ c k
  show hidden (toMat (V1 m ρ c main_arg0)) (toMat (V1 m ρ c main_v13)) (toMat (V1 m ρ c main_arg2))
      (rowOf (V1 m ρ c main_v14)) (toMat (V1 m ρ c main_arg4)) (rowOf (V1 m ρ c main_v15)) = _
  rw [hb1, hb2, V1_x m ρ c, V1_agg m ρ c, V1_w1 m ρ c, V1_w2 m ρ c]

/-- The second region is entered with those activations … -/
theorem h_eq (c : Dev nD) : toMat (V3 m ρ c main_v18_0) = actK m c := by
  rw [V3_h m ρ c, StatsRegion.arr6 (V1 m ρ) c, hid_eq m ρ c]

/-- … with their one-pass column means … -/
theorem mean_eq (c : Dev nD) : rowOf (V3 m ρ c main_v32) = meanK (actK m c) := by
  funext e
  show V3 m ρ c main_v32 (ix2 (0 : Fin 1) e) = _
  rw [V3_mean m ρ c e]
  unfold meanK
  refine congrArg (fun s => Ideal.div s nodes) (Finset.sum_congr rfl fun k _ => ?_)
  rw [StatsRegion.arr7 (V1 m ρ) c k e, hid_eq m ρ c]

/-- … with the factors (one-pass variance + ε)^(-1/2) … -/
theorem factor_eq (c : Dev nD) :
    rowOf (V3 m ρ c main_v33) = fun e => Ideal.rsqrt (varK (actK m c) e + eps) := by
  funext e
  show V3 m ρ c main_v33 (ix2 (0 : Fin 1) e) = _
  rw [V3_factor m ρ c e]
  unfold varK meanK
  have h7 : ∀ k : Fin 2, (dat0 (V1 m ρ) c).arrAt 7 cfg0.N (ix3 k (0 : Fin 1) e) = coreSum (actK m c) k e := fun k => by
    rw [StatsRegion.arr7 (V1 m ρ) c k e, hid_eq m ρ c]
  have h8 : ∀ k : Fin 2, (dat0 (V1 m ρ) c).arrAt 8 cfg0.N (ix3 k (0 : Fin 1) e) = coreSq (actK m c) k e := fun k => by
    rw [StatsRegion.arr8 (V1 m ρ) c k e, hid_eq m ρ c]
  simp only [h7, h8]

/-- … and with γ and β as rows. -/
theorem gamma_eq (c : Dev nD) : rowOf (V3 m ρ c main_v16) = toRow (m ((c.tc : Thread Cert.KernelIdeal.nD Cert.KernelIdeal.τ).loc Cert.KernelIdeal.main_arg6)) :=
  funext fun e => V3_gamma m ρ c e
theorem beta_eq (c : Dev nD) : rowOf (V3 m ρ c main_v17) = toRow (m ((c.tc : Thread Cert.KernelIdeal.nD Cert.KernelIdeal.τ).loc Cert.KernelIdeal.main_arg7)) :=
  funext fun e => V3_beta m ρ c e

/-- The result array's final contents. -/
theorem out_eq (c : Dev nD) :
    W4 m ρ c (Proc.devRef .tc main_v34)
      = ofMat (kernelOut (toMat (m ((c.tc : Thread Cert.KernelIdeal.nD Cert.KernelIdeal.τ).loc Cert.KernelIdeal.main_arg0)))
          (toMat (aggK (m ((c.tc : Thread Cert.KernelIdeal.nD Cert.KernelIdeal.τ).loc Cert.KernelIdeal.main_arg0)) (m ((c.tc : Thread Cert.KernelIdeal.nD Cert.KernelIdeal.τ).loc Cert.KernelIdeal.main_arg1))))
          (toMat (m ((c.tc : Thread Cert.KernelIdeal.nD Cert.KernelIdeal.τ).loc Cert.KernelIdeal.main_arg2))) (toRow (m ((c.tc : Thread Cert.KernelIdeal.nD Cert.KernelIdeal.τ).loc Cert.KernelIdeal.main_arg3)))
          (toMat (m ((c.tc : Thread Cert.KernelIdeal.nD Cert.KernelIdeal.τ).loc Cert.KernelIdeal.main_arg4))) (toRow (m ((c.tc : Thread Cert.KernelIdeal.nD Cert.KernelIdeal.τ).loc Cert.KernelIdeal.main_arg5)))
          (toRow (m ((c.tc : Thread Cert.KernelIdeal.nD Cert.KernelIdeal.τ).loc Cert.KernelIdeal.main_arg6))) (toRow (m ((c.tc : Thread Cert.KernelIdeal.nD Cert.KernelIdeal.τ).loc Cert.KernelIdeal.main_arg7)))) := by
  rw [Run.W4_out m ρ c, NormRegion.arr5 (V3 m ρ) c, h_eq m ρ c, mean_eq m ρ c, factor_eq m ρ c, gamma_eq m ρ c, beta_eq m ρ c]
  rfl

/-- The run: the result array at that function of the arguments, the arguments unchanged. -/
theorem run : θ_run defs (onTc (τ := τ) (main (F := Ideal))) ⟨m, fun _ => 0, ρ⟩ (fun r => ∀ c : Dev nD,
      r.2.mem ((c.tc : Thread nD τ).loc main_v34)
        = ofMat (kernelOut (toMat (m ((c.tc : Thread Cert.KernelIdeal.nD Cert.KernelIdeal.τ).loc Cert.KernelIdeal.main_arg0)))
          (toMat (aggK (m ((c.tc : Thread Cert.KernelIdeal.nD Cert.KernelIdeal.τ).loc Cert.KernelIdeal.main_arg0)) (m ((c.tc : Thread Cert.KernelIdeal.nD Cert.KernelIdeal.τ).loc Cert.KernelIdeal.main_arg1))))
          (toMat (m ((c.tc : Thread Cert.KernelIdeal.nD Cert.KernelIdeal.τ).loc Cert.KernelIdeal.main_arg2))) (toRow (m ((c.tc : Thread Cert.KernelIdeal.nD Cert.KernelIdeal.τ).loc Cert.KernelIdeal.main_arg3)))
          (toMat (m ((c.tc : Thread Cert.KernelIdeal.nD Cert.KernelIdeal.τ).loc Cert.KernelIdeal.main_arg4))) (toRow (m ((c.tc : Thread Cert.KernelIdeal.nD Cert.KernelIdeal.τ).loc Cert.KernelIdeal.main_arg5)))
          (toRow (m ((c.tc : Thread Cert.KernelIdeal.nD Cert.KernelIdeal.τ).loc Cert.KernelIdeal.main_arg6))) (toRow (m ((c.tc : Thread Cert.KernelIdeal.nD Cert.KernelIdeal.τ).loc Cert.KernelIdeal.main_arg7))))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) := by
  exact (θ_run defs _ _).mono (fun _ h c => ⟨(h c).1.trans (out_eq m ρ c), (h c).2⟩) (Run.run_value m ρ)

end Cert.KernelIdeal.Value

end
-- ==== Proof.RefRun.lean ====
/-
  The reference program as one straight line of host operations, and its run: every weakly fair execution ends with
  each buffer at the operations' composed value of the arguments.  The variance function the program calls, and the
  selection function that one calls, are written out at the call over the call's own buffers.
-/
import proofs.«106001_j82042465288993_2_alg».proof.Defs
import proofs.«106001_j82042465288993_2_alg».proof.Proof.Gen.ReferenceIdeal
import Idealize.ShloMosaic.Lib.StableHlo.Run

noncomputable section

namespace Cert.ReferenceIdeal.Value

open Cert.ReferenceIdeal Cert.ReferenceIdeal.Facts₀ Idealize.ShloMosaic Idealize.ShloMosaic.TcCoe Idealize.SL.Sem Idealize.ShloMosaic.StableHlo

variable {F : FTy → Type} [FloatOps F]

/-- The program's 76 operations, in order: @main's, with the variance function's nineteen and the selection
    function's three in the place of the call. -/
abbrev ops : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v11 (broadcastInDim S100000x128 ![] bcast_S_S100000x128 : (⟨S_, .f32⟩ : BufTy).Contents (Elt F) → (⟨S100000x128, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_arg0 main_v13 main_v14 (addf : (⟨S100000x128, .f32⟩ : BufTy).Contents (Elt F) → (⟨S100000x128, .f32⟩ : BufTy).Contents (Elt F) → (⟨S100000x128, .f32⟩ : BufTy).Contents (Elt F)),
    StableHlo.binary main_v14 main_arg2 main_v15 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg3 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S100000x128 ![0, 1] bcast_S1x128_S100000x128_0_1 : (⟨S1x128, .f32⟩ : BufTy).Contents (Elt F) → (⟨S100000x128, .f32⟩ : BufTy).Contents (Elt F)),
    StableHlo.binary main_v15 main_v17 main_v18 (addf : (⟨S100000x128, .f32⟩ : BufTy).Contents (Elt F) → (⟨S100000x128, .f32⟩ : BufTy).Contents (Elt F) → (⟨S100000x128, .f32⟩ : BufTy).Contents (Elt F)),
    StableHlo.nullary main_cst_1 (constant S_ .f32 0x00000000#32),
    StableHlo.unary main_cst_1 main_v19 (broadcastInDim S100000x128 ![] bcast_S_S100000x128 : (⟨S_, .f32⟩ : BufTy).Contents (Elt F) → (⟨S100000x128, .f32⟩ : BufTy).Contents (Elt F)),
    StableHlo.binary main_v18 main_v19 main_v20 (maximumf : (⟨S100000x128, .f32⟩ : BufTy).Contents (Elt F) → (⟨S100000x128, .f32⟩ : BufTy).Contents (Elt F) → (⟨S100000x128, .f32⟩ : BufTy).Contents (Elt F)),
    StableHlo.binary main_v20 main_arg4 main_v21 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v22 (broadcastInDim S1x128 ![1] bcast_S128_S1x128_1 : (⟨S128, .f32⟩ : BufTy).Contents (Elt F) → (⟨S1x128, .f32⟩ : BufTy).Contents (Elt F)),
    StableHlo.unary main_v22 main_v23 (broadcastInDim S100000x128 ![0, 1] bcast_S1x128_S100000x128_0_1 : (⟨S1x128, .f32⟩ : BufTy).Contents (Elt F) → (⟨S100000x128, .f32⟩ : BufTy).Contents (Elt F)),
    StableHlo.binary main_v21 main_v23 main_v24 (addf : (⟨S100000x128, .f32⟩ : BufTy).Contents (Elt F) → (⟨S100000x128, .f32⟩ : BufTy).Contents (Elt F) → (⟨S100000x128, .f32⟩ : BufTy).Contents (Elt F)),
    StableHlo.nullary main_cst_2 (constant S_ .f32 0x00000000#32),
    StableHlo.unary main_cst_2 main_v25 (broadcastInDim S100000x128 ![] bcast_S_S100000x128 : (⟨S_, .f32⟩ : BufTy).Contents (Elt F) → (⟨S100000x128, .f32⟩ : BufTy).Contents (Elt F)),
    StableHlo.binary main_v24 main_v25 main_v26 (maximumf : (⟨S100000x128, .f32⟩ : BufTy).Contents (Elt F) → (⟨S100000x128, .f32⟩ : BufTy).Contents (Elt F) → (⟨S100000x128, .f32⟩ : BufTy).Contents (Elt F)),
    StableHlo.nullary main_cst_3 (constant S_ .f32 0x00000000#32),
    StableHlo.binary main_v26 main_cst_3 main_v27 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_4 (constant S_ .f32 0x47C35000#32),
    StableHlo.unary main_cst_4 main_v28 (broadcastInDim S128 ![] bcast_S_S128 : (⟨S_, .f32⟩ : BufTy).Contents (Elt F) → (⟨S128, .f32⟩ : BufTy).Contents (Elt F)),
    StableHlo.binary main_v27 main_v28 main_v29 (Host.divf : (⟨S128, .f32⟩ : BufTy).Contents (Elt F) → (⟨S128, .f32⟩ : BufTy).Contents (Elt F) → (⟨S128, .f32⟩ : BufTy).Contents (Elt F)),
    StableHlo.nullary main_c_5 (constantI S_ 32 0#32),
    StableHlo.TRef.nullary main_call0.cst (constant S_ .f32 0x00000000#32),
    StableHlo.TRef.binary (.of main_v26) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_v26) main_call0.v4 main_call0.v5 subf,
    StableHlo.TRef.binary main_call0.v5 main_call0.v5 main_call0.v6 mulf,
    StableHlo.TRef.unary (.of main_c_5) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v29 main_v31 (broadcastInDim S1x128 ![1] bcast_S128_S1x128_1 : (⟨S128, .f32⟩ : BufTy).Contents (Elt F) → (⟨S1x128, .f32⟩ : BufTy).Contents (Elt F)),
    StableHlo.unary main_v31 main_v32 (broadcastInDim S100000x128 ![0, 1] bcast_S1x128_S100000x128_0_1 : (⟨S1x128, .f32⟩ : BufTy).Contents (Elt F) → (⟨S100000x128, .f32⟩ : BufTy).Contents (Elt F)),
    StableHlo.binary main_v26 main_v32 main_v33 (subf : (⟨S100000x128, .f32⟩ : BufTy).Contents (Elt F) → (⟨S100000x128, .f32⟩ : BufTy).Contents (Elt F) → (⟨S100000x128, .f32⟩ : BufTy).Contents (Elt F)),
    StableHlo.nullary main_cst_6 (constant S_ .f32 0x3727C5AC#32),
    StableHlo.unary main_cst_6 main_v34 (broadcastInDim S128 ![] bcast_S_S128 : (⟨S_, .f32⟩ : BufTy).Contents (Elt F) → (⟨S128, .f32⟩ : BufTy).Contents (Elt F)),
    StableHlo.binary main_v30 main_v34 main_v35 (addf : (⟨S128, .f32⟩ : BufTy).Contents (Elt F) → (⟨S128, .f32⟩ : BufTy).Contents (Elt F) → (⟨S128, .f32⟩ : BufTy).Contents (Elt F)),
    StableHlo.unary main_v35 main_v36 (Host.rsqrt : (⟨S128, .f32⟩ : BufTy).Contents (Elt F) → (⟨S128, .f32⟩ : BufTy).Contents (Elt F)),
    StableHlo.unary main_v36 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S100000x128 ![0, 1] bcast_S1x128_S100000x128_0_1 : (⟨S1x128, .f32⟩ : BufTy).Contents (Elt F) → (⟨S100000x128, .f32⟩ : BufTy).Contents (Elt F)),
    StableHlo.binary main_v33 main_v38 main_v39 (mulf : (⟨S100000x128, .f32⟩ : BufTy).Contents (Elt F) → (⟨S100000x128, .f32⟩ : BufTy).Contents (Elt F) → (⟨S100000x128, .f32⟩ : BufTy).Contents (Elt F)),
    StableHlo.unary main_arg6 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S100000x128 ![0, 1] bcast_S1x128_S100000x128_0_1 : (⟨S1x128, .f32⟩ : BufTy).Contents (Elt F) → (⟨S100000x128, .f32⟩ : BufTy).Contents (Elt F)),
    StableHlo.binary main_v39 main_v41 main_v42 (mulf : (⟨S100000x128, .f32⟩ : BufTy).Contents (Elt F) → (⟨S100000x128, .f32⟩ : BufTy).Contents (Elt F) → (⟨S100000x128, .f32⟩ : BufTy).Contents (Elt F)),
    StableHlo.unary main_arg7 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S100000x128 ![0, 1] bcast_S1x128_S100000x128_0_1 : (⟨S1x128, .f32⟩ : BufTy).Contents (Elt F) → (⟨S100000x128, .f32⟩ : BufTy).Contents (Elt F)),
    StableHlo.binary main_v42 main_v44 main_v45 (addf : (⟨S100000x128, .f32⟩ : BufTy).Contents (Elt F) → (⟨S100000x128, .f32⟩ : BufTy).Contents (Elt F) → (⟨S100000x128, .f32⟩ : BufTy).Contents (Elt F)) ]

set_option maxRecDepth 4096 in
/-- @main is that straight line: the two functions unfolded at their calls, the sequencing re-associated. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub ..⟩

/-- From any memory with zero counters, every weakly fair execution of @main terminates, and every final state has
    each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Value

end
-- ==== Proof.RefTerm.lean ====
/-
  The reference program's result as a composed term of its arguments, in named pieces: the neighbour sums, one dense
  layer with its max(·, 0), the activations, a column's mean, a column's variance as the program's variance function
  computes it, and the normalised result.  Stated for any float values.
-/
import proofs.«106001_j82042465288993_2_alg».proof.Defs
import proofs.«106001_j82042465288993_2_alg».proof.Proof.Gen.ReferenceIdeal

noncomputable section

namespace Cert.ReferenceIdeal.Value

open Cert.ReferenceIdeal Cert.ReferenceIdeal.Facts₀ Idealize.ShloMosaic

variable {F : FTy → Type} [FloatOps F]

/-- Row 0 of the edge list as a vector (the sources), and row 1 (the destinations). -/
def srcT (ei : IVec S2x1600000 32) : IVec S1600000 32 :=
  shapeCast S1600000 (extractStridedSlice S1x1600000 ![0, 0] ei slices_S2x1600000_S1x1600000_0_0)
    shapeCasts_S1x1600000_S1600000
def dstT (ei : IVec S2x1600000 32) : IVec S1600000 32 :=
  shapeCast S1600000 (extractStridedSlice S1x1600000 ![1, 0] ei slices_S2x1600000_S1x1600000_1_0)
    shapeCasts_S1x1600000_S1600000

/-- The neighbour sums: the rows of the features gathered at the sources (a negative source counted from the end),
    added into the zero array at the destinations. -/
def aggT (x : FVec F S100000x128 .f32) (ei : IVec S2x1600000 32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (dstT ei))
    (Host.gather gather_S100000x128_S1600000x1_S1600000x128_1_0_n_n_0_1_1128 x
      (broadcastInDim S1600000x1 ![0] bcast_S1600000_S1600000x1_0
        (select
          (cmpi .slt (srcT ei) (broadcastInDim S1600000 ![] bcast_S_S1600000 (constantI S_ 32 0#32)))
          (addi (srcT ei) (broadcastInDim S1600000 ![] bcast_S_S1600000 (constantI S_ 32 100000#32)))
          (srcT ei))))

/-- The zero array, and a vector laid along every row. -/
def zerosT : FVec F S100000x128 .f32 :=
  broadcastInDim S100000x128 ![] bcast_S_S100000x128 (constant S_ .f32 0x00000000#32)
def rowsT (v : FVec F S128 .f32) : FVec F S100000x128 .f32 :=
  broadcastInDim S100000x128 ![0, 1] bcast_S1x128_S100000x128_0_1 (broadcastInDim S1x128 ![1] bcast_S128_S1x128_1 v)

/-- One dense layer with its max(·, 0). -/
def layerT (v : FVec F S100000x128 .f32) (W : FVec F S128x128 .f32) (b : FVec F S128 .f32) : FVec F S100000x128 .f32 :=
  maximumf (addf (Host.dotGeneral dot_S100000x128_S128x128_S100000x128_1_0_0_1_n_n none v W) (rowsT b)) zerosT

/-- The activations before normalisation. -/
def hidT (x a : FVec F S100000x128 .f32) (W1 : FVec F S128x128 .f32) (b1 : FVec F S128 .f32)
    (W2 : FVec F S128x128 .f32) (b2 : FVec F S128 .f32) : FVec F S100000x128 .f32 :=
  layerT (layerT (addf x a) W1 b1) W2 b2

/-- The column sums from the zero constant, and the count 100000 as the program spells it. -/
def colSumT (h : FVec F S100000x128 .f32) : FVec F S128 .f32 :=
  Host.reduceAdd h (constant S_ .f32 0x00000000#32) reducesTo_S100000x128_S128_d0 h_S_
def nodesT : FVec F S_ .f32 := constant S_ .f32 0x47C35000#32

/-- The column means. -/
def meanT (h : FVec F S100000x128 .f32) : FVec F S128 .f32 :=
  Host.divf (colSumT h) (broadcastInDim S128 ![] bcast_S_S128 nodesT)

/-- Inside the variance function: the column means again, kept as one row; the deviations; the count minus the
    converted integer zero. -/
def meanRowT (h : FVec F S100000x128 .f32) : FVec F S1x128 .f32 :=
  Host.divf (broadcastInDim S1x128 ![1] bcast_S128_S1x128_1 (colSumT h)) (broadcastInDim S1x128 ![] bcast_S_S1x128 nodesT)
def devT (h : FVec F S100000x128 .f32) : FVec F S100000x128 .f32 :=
  subf h (broadcastInDim S100000x128 ![0, 1] bcast_S1x128_S100000x128_0_1 (meanRowT h))
def countT : FVec F S_ .f32 := subf nodesT (sitofp (F := F) .f32 (constantI S_ 32 0#32))

/-- The column variances: where the count is positive, the column sums of the squared deviations over the count,
    elsewhere a constant. -/
def varT (h : FVec F S100000x128 .f32) : FVec F S128 .f32 :=
  select (broadcastInDim S128 ![] bcast_S_S128 (cmpf .ogt (countT (F := F)) (constant S_ .f32 0x00000000#32)))
    (Host.divf (colSumT (mulf (devT h) (devT h))) (broadcastInDim S128 ![] bcast_S_S128 countT))
    (broadcastInDim S128 ![] bcast_S_S128 (id (constant S_ .f32 0x7FC00000#32)))

/-- The normalised result. -/
def outT (h : FVec F S100000x128 .f32) (γ β : FVec F S128 .f32) : FVec F S100000x128 .f32 :=
  addf (mulf (mulf (subf h (rowsT (meanT h)))
      (rowsT (Host.rsqrt (addf (varT h) (broadcastInDim S128 ![] bcast_S_S128 (constant S_ .f32 0x3727C5AC#32))))))
    (rowsT γ)) (rowsT β)

end Cert.ReferenceIdeal.Value

end
-- ==== Proof.RefAfter.lean ====
/-
  The fold of the reference program's operations read at the result buffer and at the arguments: the result is the
  composed term of the arguments' contents, the arguments are what they were.
-/
import proofs.«106001_j82042465288993_2_alg».proof.Proof.RefRun
import proofs.«106001_j82042465288993_2_alg».proof.Proof.RefTerm

noncomputable section

namespace Cert.ReferenceIdeal.Value

open Cert.ReferenceIdeal Cert.ReferenceIdeal.Facts₀ Idealize.ShloMosaic Idealize.ShloMosaic.TcCoe Idealize.SL.Sem Idealize.ShloMosaic.StableHlo

variable {F : FTy → Type} [FloatOps F]

set_option maxRecDepth 16384 in
set_option maxHeartbeats 2000000 in
/-- The result buffer after the operations: each operation's value at its own buffer, composed. -/
theorem after_out (V : Valuation τ sig (Elt F)) :
    after ops V (main_v45 : DevRef τ sig)
      = outT (hidT (V (main_arg0 : DevRef τ sig)) (aggT (V (main_arg0 : DevRef τ sig)) (V (main_arg1 : DevRef τ sig)))
          (V (main_arg2 : DevRef τ sig)) (V (main_arg3 : DevRef τ sig)) (V (main_arg4 : DevRef τ sig)) (V (main_arg5 : DevRef τ sig)))
          (V (main_arg6 : DevRef τ sig)) (V (main_arg7 : DevRef τ sig)) := by
  after_results_simp
  rfl

set_option maxRecDepth 16384 in
set_option maxHeartbeats 2000000 in
theorem after_arg0 (V : Valuation τ sig (Elt F)) :
    after ops V (main_arg0 : DevRef τ sig) = (V (main_arg0 : DevRef τ sig)) := by
  after_results_simp

set_option maxRecDepth 16384 in
set_option maxHeartbeats 2000000 in
theorem after_arg1 (V : Valuation τ sig (Elt F)) :
    after ops V (main_arg1 : DevRef τ sig) = (V (main_arg1 : DevRef τ sig)) := by
  after_results_simp

set_option maxRecDepth 16384 in
set_option maxHeartbeats 2000000 in
theorem after_arg2 (V : Valuation τ sig (Elt F)) :
    after ops V (main_arg2 : DevRef τ sig) = (V (main_arg2 : DevRef τ sig)) := by
  after_results_simp

set_option maxRecDepth 16384 in
set_option maxHeartbeats 2000000 in
theorem after_arg3 (V : Valuation τ sig (Elt F)) :
    after ops V (main_arg3 : DevRef τ sig) = (V (main_arg3 : DevRef τ sig)) := by
  after_results_simp

set_option maxRecDepth 16384 in
set_option maxHeartbeats 2000000 in
theorem after_arg4 (V : Valuation τ sig (Elt F)) :
    after ops V (main_arg4 : DevRef τ sig) = (V (main_arg4 : DevRef τ sig)) := by
  after_results_simp

set_option maxRecDepth 16384 in
set_option maxHeartbeats 2000000 in
theorem after_arg5 (V : Valuation τ sig (Elt F)) :
    after ops V (main_arg5 : DevRef τ sig) = (V (main_arg5 : DevRef τ sig)) := by
  after_results_simp

set_option maxRecDepth 16384 in
set_option maxHeartbeats 2000000 in
theorem after_arg6 (V : Valuation τ sig (Elt F)) :
    after ops V (main_arg6 : DevRef τ sig) = (V (main_arg6 : DevRef τ sig)) := by
  after_results_simp

set_option maxRecDepth 16384 in
set_option maxHeartbeats 2000000 in
theorem after_arg7 (V : Valuation τ sig (Elt F)) :
    after ops V (main_arg7 : DevRef τ sig) = (V (main_arg7 : DevRef τ sig)) := by
  after_results_simp

end Cert.ReferenceIdeal.Value

end
-- ==== Proof.RefRead.lean ====
/-
  The reference program's composed result read entry by entry on the extended reals: each piece of the term is the
  corresponding piece of the layer's mathematics — a dense layer as a sum over the 128 inputs, a column's sum from
  the zero constant as a sum over the 100000 rows, the variance function's count minus a converted zero as the count
  (so its selection takes the mean of squared deviations), the reciprocal square root as the extended reals' own.
-/
import proofs.«106001_j82042465288993_2_alg».proof.Proof.RefTerm
import proofs.«106001_j82042465288993_2_alg».proof.Proof.Spec
import Idealize.ShloMosaic.Lib.IdealHost
import Idealize.ShloMosaic.Lib.KernelVsHost
import Idealize.ShloMosaic.Lib.StackMember
import Idealize.ShloMosaic.Lib.ValueLayout

noncomputable section

open scoped BigOperators

namespace Cert.ReferenceIdeal.Value

open Cert.ReferenceIdeal Cert.ReferenceIdeal.Facts₀ Cert.GinNorm
open Idealize.ShloMosaic Idealize.ShloMosaic.ValueIdx

/-- The zero array is 0 everywhere. -/
theorem zerosT_apply (i : S100000x128.Idx) : zerosT (F := Ideal) i = 0 := by
  unfold zerosT
  rw [broadcastInDim_scalar_apply, constant_apply, Ideal.ofBits_zero_f32]

/-- A vector laid as the one row of a [1, 128] array. -/
theorem oneRow_apply (v : FVec Ideal S128 .f32) (e : Fin 128) :
    broadcastInDim S1x128 ![1] bcast_S128_S1x128_1 v (ix2 (0 : Fin 1) e) = v (ix1 e) := by
  refine broadcastInDim_apply ![1] bcast_S128_S1x128_1 v (ix2 (0 : Fin 1) e) (ix1 e) ?_
  intro a
  fin_cases a
  show e.val = if (128 : ℕ) = 1 then 0 else e.val
  simp

/-- A vector laid along every row, read at (r, e), is its entry e. -/
theorem rowsT_apply (v : FVec Ideal S128 .f32) (r : Fin 100000) (e : Fin 128) : rowsT v (ix2 r e) = v (ix1 e) := by
  unfold rowsT
  rw [broadcastInDim_oneRow_apply, oneRow_apply]

/-- A column's sum from the zero constant is the sum over the 100000 rows. -/
theorem colSumT_apply (h : FVec Ideal S100000x128 .f32) (e : Fin 128) :
    colSumT h (ix1 e) = ∑ r : Fin 100000, h (ix2 r e) := by
  unfold colSumT
  have hr : S100000x128.Reduces [0] S128 := by decide
  rw [hostReduceAdd_apply, Ideal.hostReduceAdd_single reducesTo_S100000x128_S128_d0 hr, constant_apply,
    Ideal.ofBits_zero_f32, zero_add]
  refine Finset.sum_congr rfl fun r _ => congrArg h ?_
  funext a
  apply Fin.ext
  match a with
  | ⟨0, _⟩ => rfl
  | ⟨1, _⟩ => rfl

/-- One dense layer with its max(·, 0), read at (r, e). -/
theorem layerT_apply (v : FVec Ideal S100000x128 .f32) (W : FVec Ideal S128x128 .f32) (b : FVec Ideal S128 .f32)
    (r : Fin 100000) (e : Fin 128) :
    layerT v W b (ix2 r e) = relu (dense (toMat W) (toRow b) (fun k => v (ix2 r k))) e := by
  unfold layerT
  have hd : dot_S100000x128_S128x128_S100000x128_1_0_0_1_n_n = DotDims.plain 100000 128 128 := rfl
  rw [maximumf_apply, addf_apply, zerosT_apply, rowsT_apply, hd, StackMember.dotGeneral_plain_apply]
  rfl

/-- The activations, read at (r, e). -/
theorem hidT_apply (x a : FVec Ideal S100000x128 .f32) (W1 : FVec Ideal S128x128 .f32) (b1 : FVec Ideal S128 .f32)
    (W2 : FVec Ideal S128x128 .f32) (b2 : FVec Ideal S128 .f32) (r : Fin 100000) (e : Fin 128) :
    hidT x a W1 b1 W2 b2 (ix2 r e)
      = GinNorm.hidden (toMat x) (toMat a) (toMat W1) (toRow b1) (toMat W2) (toRow b2) r e := by
  unfold hidT
  rw [layerT_apply]
  unfold GinNorm.hidden mlpRow
  refine congrArg (fun v => relu (dense (toMat W2) (toRow b2) v) e) (funext fun k => ?_)
  rw [layerT_apply]
  rfl

/-- The count as the program spells it is Spec's; so is the variance function's count minus a converted zero. -/
theorem nodesT_apply : nodesT (F := Ideal) ix0 = nodes := rfl

theorem countT_apply : countT (F := Ideal) ix0 = nodes := by
  unfold countT
  rw [subf_apply, nodesT_apply]
  show nodes - (((0#32 : BitVec 32).toInt : ℝ) : EReal) = nodes
  simp

/-- The column means, as a vector and as the variance function's one row. -/
theorem meanT_apply (h : FVec Ideal S100000x128 .f32) (e : Fin 128) : meanT h (ix1 e) = meanR (toMat h) e := by
  unfold meanT meanR
  rw [hostDivf_apply, colSumT_apply, broadcastInDim_scalar_apply, nodesT_apply]

theorem meanRowT_apply (h : FVec Ideal S100000x128 .f32) (e : Fin 128) :
    meanRowT h (ix2 (0 : Fin 1) e) = meanR (toMat h) e := by
  unfold meanRowT meanR
  rw [hostDivf_apply, oneRow_apply, colSumT_apply, broadcastInDim_scalar_apply, nodesT_apply]

/-- The deviations from the column means. -/
theorem devT_apply (h : FVec Ideal S100000x128 .f32) (r : Fin 100000) (e : Fin 128) :
    devT h (ix2 r e) = h (ix2 r e) - meanR (toMat h) e := by
  unfold devT
  rw [subf_apply, broadcastInDim_oneRow_apply, meanRowT_apply]

/-- The count is positive, so the variance function's selection takes the mean of the squared deviations. -/
theorem cmp_nodes_pos : Ideal.cmp .ogt nodes 0 = 1#1 := by
  unfold Ideal.cmp
  rw [nodes_eq]
  have : (0 : EReal) < ((100000 : ℝ) : EReal) := by exact_mod_cast (by norm_num : (0 : ℝ) < 100000)
  simp [this]

theorem varT_apply (h : FVec Ideal S100000x128 .f32) (e : Fin 128) : varT h (ix1 e) = varR (toMat h) e := by
  have hc : broadcastInDim S128 ![] bcast_S_S128
      (cmpf .ogt (countT (F := Ideal)) (constant (F := Ideal) S_ .f32 0x00000000#32)) (ix1 e) = 1#1 := by
    rw [broadcastInDim_scalar_apply, cmpf_apply, countT_apply, constant_apply, Ideal.ofBits_zero_f32, Ideal.cmpf_def]
    exact cmp_nodes_pos
  unfold varT
  rw [select_apply, hc, select_one, hostDivf_apply, colSumT_apply, broadcastInDim_scalar_apply, countT_apply]
  unfold varR
  refine congrArg (fun s => Ideal.div s nodes) (Finset.sum_congr rfl fun r _ => ?_)
  rw [mulf_apply, devT_apply]

/-- The normalised result, read at (r, e). -/
theorem outT_apply (h : FVec Ideal S100000x128 .f32) (γ β : FVec Ideal S128 .f32) (r : Fin 100000) (e : Fin 128) :
    outT h γ β (ix2 r e)
      = GinNorm.normalize (toMat h) (meanR (toMat h)) (fun e => Ideal.rsqrt (varR (toMat h) e + eps)) (toRow γ) (toRow β) r e := by
  have hs : Host.rsqrt (addf (varT h) (broadcastInDim S128 ![] bcast_S_S128 (constant (F := Ideal) S_ .f32 0x3727C5AC#32)))
      (ix1 e) = Ideal.rsqrt (varR (toMat h) e + eps) := by
    show Ideal.rsqrt (addf (varT h) (broadcastInDim S128 ![] bcast_S_S128 (constant (F := Ideal) S_ .f32 0x3727C5AC#32))
      (ix1 e)) = _
    rw [addf_apply, varT_apply, broadcastInDim_scalar_apply]
    rfl
  unfold outT GinNorm.normalize
  rw [addf_apply, mulf_apply, mulf_apply, subf_apply, rowsT_apply, rowsT_apply, rowsT_apply, rowsT_apply, meanT_apply, hs]

/-- The composed result is the two-pass formula of the layer, entry by entry. -/
theorem outT_read (x a : FVec Ideal S100000x128 .f32) (W1 : FVec Ideal S128x128 .f32) (b1 : FVec Ideal S128 .f32)
    (W2 : FVec Ideal S128x128 .f32) (b2 γ β : FVec Ideal S128 .f32) :
    outT (hidT x a W1 b1 W2 b2) γ β
      = ofMat (refOut (toMat x) (toMat a) (toMat W1) (toRow b1) (toMat W2) (toRow b2) (toRow γ) (toRow β)) := by
  funext i
  obtain ⟨r, e, rfl⟩ : ∃ (r : Fin 100000) (e : Fin 128), i = ix2 r e := ⟨i 0, i 1, eq_ix2 i⟩
  have hh : toMat (hidT x a W1 b1 W2 b2)
      = GinNorm.hidden (toMat x) (toMat a) (toMat W1) (toRow b1) (toMat W2) (toRow b2) :=
    funext fun r => funext fun e => hidT_apply x a W1 b1 W2 b2 r e
  rw [outT_apply, ofMat_ix2, hh]
  rfl

end Cert.ReferenceIdeal.Value

end
-- ==== Proof.RefValue.lean ====
/-
  The reference program's run and its result as one function of its arguments: the normalised activations with
  two-pass statistics, the neighbour sums being whatever the program's host lines make of the features and the
  edge list.
-/
import proofs.«106001_j82042465288993_2_alg».proof.Defs
import proofs.«106001_j82042465288993_2_alg».proof.Proof.Gen.ReferenceIdeal
import proofs.«106001_j82042465288993_2_alg».proof.Proof.Spec
import proofs.«106001_j82042465288993_2_alg».proof.Proof.RefAfter
import proofs.«106001_j82042465288993_2_alg».proof.Proof.RefRead
import Idealize.ShloMosaic.Lib.StableHlo.Run
import Idealize.ShloMosaic.Lib.ValueLayout
import Idealize.ShloMosaic.PureOps.Ideal.Laws

noncomputable section

open scoped BigOperators

namespace Cert.ReferenceIdeal.Value

open Cert.ReferenceIdeal Cert.ReferenceIdeal.Facts₀ Cert.GinNorm
open Idealize.ShloMosaic Idealize.ShloMosaic.TcCoe Idealize.ShloMosaic.ValueIdx Idealize.SL.Sem

/-- The neighbour sums as this program's host lines compute them from the features and the edge list. -/
def aggR (x : FVec Ideal S100000x128 .f32) (ei : IVec S2x1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0
      (shapeCast S1600000 (extractStridedSlice S1x1600000 ![1, 0] ei slices_S2x1600000_S1x1600000_1_0)
        shapeCasts_S1x1600000_S1600000))
    (Host.gather gather_S100000x128_S1600000x1_S1600000x128_1_0_n_n_0_1_1128 x
      (broadcastInDim S1600000x1 ![0] bcast_S1600000_S1600000x1_0
        (select
          (cmpi .slt
            (shapeCast S1600000 (extractStridedSlice S1x1600000 ![0, 0] ei slices_S2x1600000_S1x1600000_0_0)
              shapeCasts_S1x1600000_S1600000)
            (broadcastInDim S1600000 ![] bcast_S_S1600000 (constantI S_ 32 0#32)))
          (addi
            (shapeCast S1600000 (extractStridedSlice S1x1600000 ![0, 0] ei slices_S2x1600000_S1x1600000_0_0)
              shapeCasts_S1x1600000_S1600000)
            (broadcastInDim S1600000 ![] bcast_S_S1600000 (constantI S_ 32 100000#32)))
          (shapeCast S1600000 (extractStridedSlice S1x1600000 ![0, 0] ei slices_S2x1600000_S1x1600000_0_0)
            shapeCasts_S1x1600000_S1600000))))

/-- The same neighbour sums with the two rows of the edge list named. -/
theorem aggR_eq_aggT (x : FVec Ideal S100000x128 .f32) (ei : IVec S2x1600000 32) : aggR x ei = aggT x ei := rfl

variable (m : (ℓ : Loc nD τ sig) → Buf (Elt Ideal) ℓ) (ρ : Dev nD → PrngReg)

/-- The run: the result array at that function of the arguments, the arguments unchanged. -/
theorem run : θ_run (defs (F := Ideal)) (onTc (τ := τ) (main (F := Ideal))) ⟨m, fun _ => 0, ρ⟩ (fun r => ∀ c : Dev nD,
      r.2.mem ((c.tc : Thread nD τ).loc main_v45)
        = ofMat (refOut (toMat (m ((c.tc : Thread Cert.ReferenceIdeal.nD Cert.ReferenceIdeal.τ).loc Cert.ReferenceIdeal.main_arg0)))
          (toMat (aggR (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))))
          (toMat (m ((c.tc : Thread Cert.ReferenceIdeal.nD Cert.ReferenceIdeal.τ).loc Cert.ReferenceIdeal.main_arg2))) (toRow (m ((c.tc : Thread Cert.ReferenceIdeal.nD Cert.ReferenceIdeal.τ).loc Cert.ReferenceIdeal.main_arg3)))
          (toMat (m ((c.tc : Thread Cert.ReferenceIdeal.nD Cert.ReferenceIdeal.τ).loc Cert.ReferenceIdeal.main_arg4))) (toRow (m ((c.tc : Thread Cert.ReferenceIdeal.nD Cert.ReferenceIdeal.τ).loc Cert.ReferenceIdeal.main_arg5)))
          (toRow (m ((c.tc : Thread Cert.ReferenceIdeal.nD Cert.ReferenceIdeal.τ).loc Cert.ReferenceIdeal.main_arg6))) (toRow (m ((c.tc : Thread Cert.ReferenceIdeal.nD Cert.ReferenceIdeal.τ).loc Cert.ReferenceIdeal.main_arg7))))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)) := by
  refine (θ_run _ _ _).mono (fun _ h c => ?_) (run_main (F := Ideal) m ρ)
  refine ⟨?_, (h c main_arg0).trans (after_arg0 _),
    (h c main_arg1).trans (after_arg1 _),
    (h c main_arg2).trans (after_arg2 _),
    (h c main_arg3).trans (after_arg3 _),
    (h c main_arg4).trans (after_arg4 _),
    (h c main_arg5).trans (after_arg5 _),
    (h c main_arg6).trans (after_arg6 _),
    (h c main_arg7).trans (after_arg7 _)⟩
  rw [h c main_v45, after_out, outT_read, aggR_eq_aggT]

end Cert.ReferenceIdeal.Value

end
-- ==== Proof.LibBlockSum.lean ====
/-
  Sums over array indices, re-indexed through coordinates.

  A rank-3 (rank-4) index set is the product of its coordinate ranges, so a sum over it is the iterated sum over the
  coordinates; and an axis of extent `T * B` cut into `T` blocks of `B` is summed block by block. Together these turn
  "the total over a whole array" into "the total, over the blocks that tile its leading axis, of each block's total" — the
  equation between a reference's one reduction over an array and a kernel's accumulation over a grid of row blocks.
-/
import Idealize.ShloMosaic.Lib.ValueIdx

noncomputable section

open scoped BigOperators

namespace Idealize.ShloMosaic.ValueIdx

open Idealize.ShloMosaic

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl
/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- Row `b` of block `t`, of `T` blocks of `B` rows: row `t * B + b` of the whole. -/
def blockRow {T B : Nat} (t : Fin T) (b : Fin B) : Fin (T * B) :=
  ⟨t.val * B + b.val, by
    have ht := t.isLt; have hb := b.isLt
    calc t.val * B + b.val < t.val * B + B := by omega
      _ = (t.val + 1) * B := by ring
      _ ≤ T * B := Nat.mul_le_mul_right B ht⟩

theorem blockRow_val {T B : Nat} (t : Fin T) (b : Fin B) : (blockRow t b).val = t.val * B + b.val := rfl

/-- The rows of an axis of extent `T * B` are the rows of its `T` blocks: a bijection. -/
def blockRowEquiv (T B : Nat) : Fin T × Fin B ≃ Fin (T * B) where
  toFun p := blockRow p.1 p.2
  invFun r := (⟨r.val / B, by
      have hr := r.isLt
      rcases Nat.eq_zero_or_pos B with hB | hB
      · subst hB; simp at hr
      · exact (Nat.div_lt_iff_lt_mul hB).mpr hr⟩,
    ⟨r.val % B, by
      have hr := r.isLt
      rcases Nat.eq_zero_or_pos B with hB | hB
      · subst hB; simp at hr
      · exact Nat.mod_lt _ hB⟩)
  left_inv p := by
    obtain ⟨t, b⟩ := p
    have hb := b.isLt
    have hB : 0 < B := by omega
    refine Prod.ext (Fin.ext ?_) (Fin.ext ?_)
    · show (t.val * B + b.val) / B = t.val
      rw [Nat.add_comm, Nat.add_mul_div_right _ _ hB, Nat.div_eq_of_lt hb, Nat.zero_add]
    · show (t.val * B + b.val) % B = b.val
      rw [Nat.add_comm, Nat.add_mul_mod_self_right, Nat.mod_eq_of_lt hb]
  right_inv r := by
    apply Fin.ext
    show r.val / B * B + r.val % B = r.val
    rw [Nat.mul_comm]; exact Nat.div_add_mod r.val B

/-- A sum over an axis of extent `T * B` is the sum over its `T` blocks of the sum over each block's `B` rows. -/
theorem sum_blockRows {M : Type*} [AddCommMonoid M] (T B : Nat) (f : Fin (T * B) → M) :
    ∑ r, f r = ∑ t : Fin T, ∑ b : Fin B, f (blockRow t b) := by
  rw [← Equiv.sum_comp (blockRowEquiv T B) f, Fintype.sum_prod_type]
  rfl

end Idealize.ShloMosaic.ValueIdx

end
-- ==== Proof.LibRealSums.lean ====
/-
  Finite sums of extended reals that are all real numbers.

  The coercion of the reals into the extended reals is additive, so it commutes with a sum over any finite set; hence a
  finite sum of extended reals each of which is (the image of) a real number is itself one. This is what lets an
  equation between finite sums and products on the extended reals, whose entries are known to be finite, be proved over
  the reals, where distributivity and cancellation hold.
-/
import Mathlib

open scoped BigOperators

namespace Cert.LibRealSums

/-- The coercion of the reals into the extended reals commutes with finite sums. -/
theorem coe_finset_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A finite sum of extended reals that are all real numbers is a real number. -/
theorem exists_real_sum {ι : Type*} (s : Finset ι) (f : ι → EReal) (h : ∀ i, ∃ r : ℝ, f i = r) :
    ∃ r : ℝ, ∑ i ∈ s, f i = r := by
  choose g hg using h
  exact ⟨∑ i ∈ s, g i, by rw [coe_finset_sum]; exact Finset.sum_congr rfl fun i _ => hg i⟩

end Cert.LibRealSums
-- ==== Proof.LibOnePassVariance.lean ====
/-
  The one-pass variance is the two-pass variance, on extended reals that are real numbers.

  For real numbers h₁ … h_n with mean m = (Σ hᵣ)/n,  (Σ (hᵣ − m)²)/n = (Σ hᵣ²)/n − m²: expand the square; the cross
  term is 2 m · Σ hᵣ = 2 n m², and n is the number of terms.  On the extended reals, where a quotient by a nonzero
  real c is the product with 1/c, the same holds whenever every hᵣ is (the image of) a real number — distributivity
  fails at ±∞, so that hypothesis is needed.  Also here: entries built from real numbers by finite sums, products,
  differences and max are real numbers, which is how "every hᵣ is real" is usually obtained.
-/
import Idealize.ShloMosaic.PureOps.Ideal
import proofs.«106001_j82042465288993_2_alg».proof.Proof.LibRealSums

noncomputable section

open scoped BigOperators

namespace Cert.LibOnePassVariance

open Idealize.ShloMosaic

/-- An extended real that is a real number. -/
def IsReal (z : EReal) : Prop := ∃ v : ℝ, z = (v : EReal)

theorem IsReal.coe (v : ℝ) : IsReal (v : EReal) := ⟨v, rfl⟩
theorem IsReal.zero : IsReal 0 := ⟨0, EReal.coe_zero.symm⟩
theorem IsReal.add {a b : EReal} (ha : IsReal a) (hb : IsReal b) : IsReal (a + b) := by
  obtain ⟨u, rfl⟩ := ha; obtain ⟨v, rfl⟩ := hb; exact ⟨u + v, (EReal.coe_add u v).symm⟩
theorem IsReal.sub {a b : EReal} (ha : IsReal a) (hb : IsReal b) : IsReal (a - b) := by
  obtain ⟨u, rfl⟩ := ha; obtain ⟨v, rfl⟩ := hb; exact ⟨u - v, (EReal.coe_sub u v).symm⟩
theorem IsReal.mul {a b : EReal} (ha : IsReal a) (hb : IsReal b) : IsReal (a * b) := by
  obtain ⟨u, rfl⟩ := ha; obtain ⟨v, rfl⟩ := hb; exact ⟨u * v, (EReal.coe_mul u v).symm⟩
theorem IsReal.max {a b : EReal} (ha : IsReal a) (hb : IsReal b) : IsReal (max a b) := by
  rcases le_total a b with h | h
  · rw [max_eq_right h]; exact hb
  · rw [max_eq_left h]; exact ha
theorem IsReal.sum {ι : Type*} (s : Finset ι) (f : ι → EReal) (h : ∀ i, IsReal (f i)) : IsReal (∑ i ∈ s, f i) :=
  Cert.LibRealSums.exists_real_sum s f h

/-- The identity over the reals, for any number n ≠ 0 of terms. -/
theorem real_variance (n : ℕ) (hn : (n : ℝ) ≠ 0) (h : Fin n → ℝ) :
    (∑ r, (h r - (∑ r, h r) / n) * (h r - (∑ r, h r) / n)) / n
      = (∑ r, h r * h r) / n - ((∑ r, h r) / n) * ((∑ r, h r) / n) := by
  set S := ∑ r, h r with hS
  have e1 : ∀ r, (h r - S / n) * (h r - S / n) = h r * h r - 2 * (S / n) * h r + (S / n) * (S / n) := fun r => by ring
  simp only [e1]
  rw [Finset.sum_add_distrib, Finset.sum_sub_distrib, ← Finset.mul_sum, Finset.sum_const, Finset.card_univ,
    Fintype.card_fin, nsmul_eq_mul, ← hS]
  field_simp
  ring

/-- The mean of n real entries, as an extended-real quotient by N = n. -/
theorem mean_coe (n : ℕ) (hn : (n : ℝ) ≠ 0) (N : EReal) (hN : N = ((n : ℝ) : EReal)) (h : Fin n → ℝ) :
    Ideal.div (∑ r, ((h r : ℝ) : EReal)) N = (((∑ r, h r) / (n : ℝ) : ℝ) : EReal) := by
  rw [hN, Ideal.div_coe hn, ← Cert.LibRealSums.coe_finset_sum, ← EReal.coe_mul]
  congr 1; ring

/-- On the extended reals: for n entries that are all real numbers and N the real number n, the mean of the squared
    deviations from the mean is the mean of the squares minus the square of the mean. -/
theorem variance_two_pass_eq_one_pass (n : ℕ) (hn : (n : ℝ) ≠ 0) (N : EReal) (hN : N = ((n : ℝ) : EReal))
    (f : Fin n → EReal) (hf : ∀ r, IsReal (f r)) :
    Ideal.div (∑ r, (f r - Ideal.div (∑ r, f r) N) * (f r - Ideal.div (∑ r, f r) N)) N
      = Ideal.div (∑ r, f r * f r) N - Ideal.div (∑ r, f r) N * Ideal.div (∑ r, f r) N := by
  choose h hh using hf
  simp only [hh]
  rw [mean_coe n hn N hN h]
  simp only [← EReal.coe_sub, ← EReal.coe_mul]
  rw [hN, Ideal.div_coe hn, Ideal.div_coe hn, ← Cert.LibRealSums.coe_finset_sum, ← Cert.LibRealSums.coe_finset_sum,
    ← EReal.coe_mul, ← EReal.coe_mul, ← EReal.coe_sub]
  congr 1
  have := real_variance n hn h
  rw [div_eq_mul_one_div] at this
  rw [this]; ring

end Cert.LibOnePassVariance

end
-- ==== Proof.Algebra.lean ====
/-
  Why the one-pass and the two-pass statistics agree.

  (1) A column's total over all 100000 rows is the total of the two cores' shares, each the total over its ten blocks
  of 5000 rows: the rows are cut into 20 blocks of 5000, the blocks into 2 groups of 10.  This is only commutativity
  and associativity of addition, which hold on the extended reals.
  (2) For REAL numbers h₁ … h_N with mean m, (Σ (hᵣ − m)²)/N = (Σ hᵣ²)/N − m² (the general identity is a lemma of its
  own); distributivity fails at ±∞, so this needs every entry real.
  (3) Entries built from real numbers by finite sums, products and max with 0 are real numbers: so the activations
  are real when the features, the neighbour sums, the weights and the biases are.
-/
import proofs.«106001_j82042465288993_2_alg».proof.Proof.Spec
import proofs.«106001_j82042465288993_2_alg».proof.Proof.LibBlockSum
import proofs.«106001_j82042465288993_2_alg».proof.Proof.LibRealSums
import proofs.«106001_j82042465288993_2_alg».proof.Proof.LibOnePassVariance

noncomputable section

open scoped BigOperators

namespace Cert.GinNorm

open Idealize.ShloMosaic Idealize.ShloMosaic.ValueIdx

export Cert.LibOnePassVariance (IsReal IsReal.coe IsReal.zero IsReal.add IsReal.sub IsReal.mul IsReal.max IsReal.sum)

/-! ## (3) the activations are real -/

theorem dense_real {W : Mat 128 128} {b v : Row 128} (hW : ∀ j k, IsReal (W j k)) (hb : ∀ k, IsReal (b k))
    (hv : ∀ j, IsReal (v j)) (k : Fin 128) : IsReal (dense W b v k) :=
  (IsReal.sum _ _ fun j => (hv j).mul (hW j k)).add (hb k)

theorem relu_real {v : Row 128} (hv : ∀ j, IsReal (v j)) (k : Fin 128) : IsReal (relu v k) :=
  (hv k).max IsReal.zero

theorem hidden_real {x a : Mat 100000 128} {W1 : Mat 128 128} {b1 : Row 128} {W2 : Mat 128 128} {b2 : Row 128}
    (hx : ∀ r j, IsReal (x r j)) (ha : ∀ r j, IsReal (a r j)) (hW1 : ∀ j k, IsReal (W1 j k)) (hb1 : ∀ k, IsReal (b1 k))
    (hW2 : ∀ j k, IsReal (W2 j k)) (hb2 : ∀ k, IsReal (b2 k)) (r : Fin 100000) (e : Fin 128) :
    IsReal (hidden x a W1 b1 W2 b2 r e) :=
  relu_real (dense_real hW2 hb2 (relu_real (dense_real hW1 hb1 fun j => (hx r j).add (ha r j)))) e

/-! ## (1) the rows summed core by core and block by block -/

theorem node_eq (c : Fin 2) (i : Fin 10) (p : Fin 5000) :
    node c i p = (blockRow (T := 20) (B := 5000) (blockRow (T := 2) (B := 10) c i) p : Fin 100000) := Fin.ext rfl

/-- A total over the 100000 rows is the total over the 2 cores of the total over each core's 10 blocks of 5000 rows. -/
theorem sum_rows (f : Fin 100000 → EReal) :
    ∑ r : Fin 100000, f r = ∑ c : Fin 2, ∑ i : Fin 10, ∑ p : Fin 5000, f (node c i p) := by
  have h1 : ∑ r : Fin 100000, f r = ∑ t : Fin 20, ∑ p : Fin 5000, f (blockRow (T := 20) (B := 5000) t p) :=
    sum_blockRows 20 5000 f
  have h2 : ∑ t : Fin 20, ∑ p : Fin 5000, f (blockRow (T := 20) (B := 5000) t p)
      = ∑ c : Fin 2, ∑ i : Fin 10, ∑ p : Fin 5000, f (blockRow (T := 20) (B := 5000) (blockRow (T := 2) (B := 10) c i) p) :=
    sum_blockRows 2 10 fun t : Fin 20 => ∑ p : Fin 5000, f (blockRow (T := 20) (B := 5000) t p)
  rw [h1, h2]
  refine Finset.sum_congr rfl fun c _ => Finset.sum_congr rfl fun i _ => Finset.sum_congr rfl fun p _ => ?_
  rw [node_eq]

theorem sum_coreSum (H : Mat 100000 128) (e : Fin 128) : ∑ c : Fin 2, coreSum H c e = ∑ r : Fin 100000, H r e :=
  (sum_rows fun r => H r e).symm

theorem sum_coreSq (H : Mat 100000 128) (e : Fin 128) :
    ∑ c : Fin 2, coreSq H c e = ∑ r : Fin 100000, H r e * H r e :=
  (sum_rows fun r => H r e * H r e).symm

theorem meanK_eq_meanR (H : Mat 100000 128) : meanK H = meanR H :=
  funext fun e => by unfold meanK meanR; rw [sum_coreSum]

/-! ## (2) the variance identity -/

/-- The one-pass variance is the two-pass variance on a column of real numbers: the identity for 100000 real
    entries, the column's total taken core by core. -/
theorem varK_eq_varR (H : Mat 100000 128) (e : Fin 128) (hH : ∀ r, IsReal (H r e)) : varK H e = varR H e := by
  have hN : nodes = (((100000 : ℕ) : ℝ) : EReal) := by rw [nodes_eq]; norm_num
  have h := Cert.LibOnePassVariance.variance_two_pass_eq_one_pass 100000 (by norm_num) nodes hN (fun r => H r e) hH
  unfold varK varR
  rw [meanK_eq_meanR, sum_coreSq]
  unfold meanR
  exact h.symm

/-! ## The two results agree -/

theorem kernelOut_eq_refOut {x a : Mat 100000 128} {W1 : Mat 128 128} {b1 : Row 128} {W2 : Mat 128 128} {b2 : Row 128}
    (γ β : Row 128)
    (hx : ∀ r j, IsReal (x r j)) (ha : ∀ r j, IsReal (a r j)) (hW1 : ∀ j k, IsReal (W1 j k)) (hb1 : ∀ k, IsReal (b1 k))
    (hW2 : ∀ j k, IsReal (W2 j k)) (hb2 : ∀ k, IsReal (b2 k)) :
    kernelOut x a W1 b1 W2 b2 γ β = refOut x a W1 b1 W2 b2 γ β := by
  unfold kernelOut refOut
  have hv : (fun e => Ideal.rsqrt (varK (hidden x a W1 b1 W2 b2) e + eps))
      = fun e => Ideal.rsqrt (varR (hidden x a W1 b1 W2 b2) e + eps) :=
    funext fun e => by rw [varK_eq_varR _ e fun r => hidden_real hx ha hW1 hb1 hW2 hb2 r e]
  rw [meanK_eq_meanR, hv]

end Cert.GinNorm

end
-- ==== Proof.Finite.lean ====
/-
  The precondition, read back: every entry of the float inputs is a real number.

  The precondition is the conjunction, over the seven float inputs, of "every entry's absolute value is below +∞".
  An extended real whose absolute value max(x, −x) is below +∞ is neither +∞ nor −∞: it is a real number.
-/
import proofs.«106001_j82042465288993_2_alg».proof.Pre_finite_inputs
import proofs.«106001_j82042465288993_2_alg».proof.Proof.Algebra
import Idealize.ShloMosaic.Lib.ReduceAll
import Idealize.ShloMosaic.Lib.ValueIdx
import Idealize.ShloMosaic.PureOps.Ideal.Laws

noncomputable section

namespace Cert.GinNorm

open Idealize.ShloMosaic Idealize.ShloMosaic.ValueIdx Cert.Pre_finite_inputs

/-- The word 0x7F800000 denotes +∞. -/
theorem ofBits_inf : Ideal.ofBits .f32 0x7F800000#32 = (⊤ : EReal) := by
  simp [Ideal.ofBits, Ideal.ieee]

/-- |x| < +∞, as the comparison's bit, says x is a real number. -/
theorem isReal_of_abs_lt (x : EReal)
    (h : Ideal.cmp .olt (max x (-x)) (Ideal.ofBits .f32 0x7F800000#32) = 1#1) : IsReal x := by
  rw [ofBits_inf] at h
  have hlt : max x (-x) < ⊤ := by
    by_contra hn
    simp [Ideal.cmp, hn] at h
  induction x using EReal.rec with
  | bot => exact absurd hlt (by simp)
  | coe v => exact ⟨v, rfl⟩
  | top => exact absurd hlt (by simp)

instance : Subsingleton S_.Idx := ⟨fun a b => funext fun d => d.elim0⟩

/-- One conjunct: "all entries of |a| are below +∞" gives every entry of a real. -/
theorem reals_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
        (cmpf .olt (Host.absf a) (broadcastInDim s ![] hb (constant (F := Ideal) S_ .f32 0x7F800000#32)))
        (constantI S_ 1 1#1) hr hu ix0 = 1#1) (i : s.Idx) : IsReal (a i) :=
  isReal_of_abs_lt (a i) (Host.reduce_andi_all _ _ hr hu ix0 e i)

variable [Facts]

/-- The precondition gives the features, both weight matrices and both biases real entries. -/
theorem reals_of_pre (a0 : FVec Ideal S100000x128 .f32) (a1 : IVec S2x1600000 32) (a2 : FVec Ideal S128x128 .f32)
    (a3 : FVec Ideal S128 .f32) (a4 : FVec Ideal S128x128 .f32) (a5 a6 a7 : FVec Ideal S128 .f32)
    (h : fn (F := Ideal) a0 a1 a2 a3 a4 a5 a6 a7 = fun _ => 1#1) :
    (∀ i, IsReal (a0 i)) ∧ (∀ i, IsReal (a2 i)) ∧ (∀ i, IsReal (a3 i)) ∧ (∀ i, IsReal (a4 i)) ∧ (∀ i, IsReal (a5 i)) := by
  have h0 := congrFun h ix0
  dsimp only [fn, fn_part1] at h0
  obtain ⟨h0, -⟩ := IntOp.andi_eq_one.1 h0
  obtain ⟨h0, -⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨reals_of_all a0 _ _ _ e0, reals_of_all a2 _ _ _ e2, reals_of_all a3 _ _ _ e3, reals_of_all a4 _ _ _ e4,
    reals_of_all a5 _ _ _ e5⟩

end Cert.GinNorm

end
-- ==== Proof.AggFacts.lean ====
/-
  The neighbour sums.

  Both programs form them by the same host lines: gather row src[j] of the features for every edge j, and add it into
  row dst[j] of a zero array.  So (1) the two programs' neighbour sums are one function of the features and the edge
  list, and (2) every entry is the zero plus a finite sum of entries of the features — a real number when those are.
-/
import proofs.«106001_j82042465288993_2_alg».proof.Proof.KernelGlue
import proofs.«106001_j82042465288993_2_alg».proof.Proof.RefValue
import proofs.«106001_j82042465288993_2_alg».proof.Proof.Algebra

noncomputable section

open scoped BigOperators

namespace Cert.GinNorm

open Idealize.ShloMosaic Idealize.ShloMosaic.ValueIdx

/-- A scatter-add, into an array of real numbers, of rows gathered from an array of real numbers has real entries:
    each entry is the operand's entry plus a finite sum of gathered entries, and a gathered entry is an entry of the
    table. -/
theorem scatterAdd_gather_real {s si sg su : Shape} {w w' : Nat} (sd : ScatterDims s si su) (gd : GatherDims s sg su)
    (x : FVec Ideal s .f32) (hx : ∀ i, IsReal (x i)) (z : FVec Ideal s .f32) (hz : ∀ i, IsReal (z i))
    (di : IVec si w) (gi : IVec sg w') (i : s.Idx) :
    IsReal (Host.scatterAdd (F := Ideal) sd z di (Host.gather gd x gi) i) := by
  show IsReal (Ideal.hostScatterAdd sd z di (Host.gather gd x gi) i)
  unfold Ideal.hostScatterAdd
  exact (hz i).add (IsReal.sum _ _ fun j => hx _)

/-- The kernel program's neighbour sums are real when the features are. -/
theorem aggK_real (x : FVec Ideal Cert.KernelIdeal.S100000x128 .f32) (ei : IVec Cert.KernelIdeal.S2x1600000 32)
    (hx : ∀ i, IsReal (x i)) (i : Cert.KernelIdeal.S100000x128.Idx) : IsReal (Cert.KernelIdeal.Glue.aggK x ei i) := by
  unfold Cert.KernelIdeal.Glue.aggK
  refine scatterAdd_gather_real _ _ x hx _ (fun j => ?_) _ _ i
  show IsReal (Ideal.ofBits .f32 0x00000000#32)
  rw [Ideal.ofBits_zero_f32]; exact IsReal.zero

/-- The two programs' neighbour sums are the same function: the same operations with the same dimension numbers. -/
theorem aggK_eq_aggR (x : FVec Ideal Cert.KernelIdeal.S100000x128 .f32) (ei : IVec Cert.KernelIdeal.S2x1600000 32) :
    Cert.KernelIdeal.Glue.aggK x ei = Cert.ReferenceIdeal.Value.aggR x ei := rfl

end Cert.GinNorm

end
-- ==== Proof.lean ====
/-
  A graph-isomorphism layer with batch normalisation: the kernel and its reference compute the same array.

  Both programs form the neighbour sums a = segment_sum(x[src], dst) by the same host lines, push every row of x + a
  through two dense layers with max(·, 0), and normalise each of the 128 output columns over the 100000 nodes:
  ((h − mean) · (var + ε)^(-1/2)) · γ + β.  The reference takes the variance as the mean of the squared deviations
  from the mean.  The kernel gathers, in a first pass over the rows (two cores, ten blocks of 5000 rows each), each
  core's column sums of h and of h², adds the two cores' rows, and takes the variance as mean of squares minus squared
  mean; a second pass normalises block by block.

  At the ideal instance every change of float format is the identity, so both programs hold the same activations h.
  A column's total is the total of the per-core, per-block totals (addition on the extended reals is commutative and
  associative), so the two means agree.  The two variances agree because for real numbers
  (Σ (hᵣ − m)²)/N = (Σ hᵣ²)/N − m² with m the mean and N = 100000 the number of rows; this uses distributivity, which
  fails at ±∞, so it needs every activation to be a real number — and it is: the precondition makes the features,
  weights and biases real, the neighbour sums are finite sums of features, and sums, products and max with 0 of reals
  are real.  The same word ε and the same (·)^(-1/2) on equal arguments then give equal factors, and the rest is one
  expression on both sides.

  The three frames: the kernel's (at both instances) are its generated frame certificate; the reference, a straight
  line of host operations with two inlined calls, runs to completion with every buffer at its operations' value, and
  its frame is that run with the result forgotten.  The ideal pass rewrote nothing, so there is nothing to preserve.
-/
import proofs.«106001_j82042465288993_2_alg».proof.Defs
import proofs.«106001_j82042465288993_2_alg».proof.Proof.Gen.Kernel
import proofs.«106001_j82042465288993_2_alg».proof.Proof.Gen.Kernel.Frame
import proofs.«106001_j82042465288993_2_alg».proof.Proof.Gen.KernelIdeal
import proofs.«106001_j82042465288993_2_alg».proof.Proof.Gen.KernelIdeal.Frame
import proofs.«106001_j82042465288993_2_alg».proof.Proof.Gen.ReferenceIdeal
import proofs.«106001_j82042465288993_2_alg».proof.Proof.Gen.Pre_finite_inputs
import proofs.«106001_j82042465288993_2_alg».proof.Proof.KernelValue
import proofs.«106001_j82042465288993_2_alg».proof.Proof.RefValue
import proofs.«106001_j82042465288993_2_alg».proof.Proof.Algebra
import proofs.«106001_j82042465288993_2_alg».proof.Proof.Finite
import proofs.«106001_j82042465288993_2_alg».proof.Proof.AggFacts

noncomputable section

namespace Cert.Proof

open Idealize.ShloMosaic Idealize.ShloMosaic.ValueIdx Idealize.SL.Sem Cert.GinNorm

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run m ρ)

/-- The two results are one array: equal activations, equal means, and — every activation being a real number —
    equal variances. -/
theorem algebraic : Cert.algebraic_KernelIdeal_ReferenceIdeal := by
  intro m ρ m' ρ' hpre hagree
  refine ⟨_, Cert.KernelIdeal.Value.run m ρ, ?_⟩
  refine (θ_run Cert.ReferenceIdeal.defs _ _).mono (fun _ h c => ⟨(h c).1.trans ?_, (h c).2⟩)
    (Cert.ReferenceIdeal.Value.run m' ρ')
  obtain ⟨e0, e1, e2, e3, e4, e5, e6, e7⟩ := hagree c
  rw [e0, e1, e2, e3, e4, e5, e6, e7]
  obtain ⟨h0, h2, h3, h4, h5⟩ := reals_of_pre _ _ _ _ _ _ _ _ (hpre c)
  rw [← aggK_eq_aggR]
  exact congrArg ofMat (kernelOut_eq_refOut _ _ (fun r j => h0 _) (fun r j => aggK_real _ _ h0 _)
    (fun j k => h2 _) (fun k => h3 _) (fun j k => h4 _) (fun k => h5 _)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
